-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S10000x512 .f32) (main_arg1 : FVec F S10000x10000 .f32) (main_arg2 : FVec F S512x256 .f32) (main_arg3 : FVec F S256 .f32) (main_arg4 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S10000x256 : Shape := ⟨2, ![10000, 256]⟩
abbrev S1000x512 : Shape := ⟨2, ![1000, 512]⟩
abbrev S1000x256 : Shape := ⟨2, ![1000, 256]⟩
abbrev S10000x1 : Shape := ⟨2, ![10000, 1]⟩
abbrev S200x10000 : Shape := ⟨2, ![200, 10000]⟩
abbrev S200x1 : Shape := ⟨2, ![200, 1]⟩
abbrev S200 : Shape := ⟨1, ![200]⟩
abbrev S200x256 : Shape := ⟨2, ![200, 256]⟩
abbrev S1x256 : Shape := ⟨2, ![1, 256]⟩

abbrev nBuf : Space → Nat
  | .hbm => 10
  | .vmem => 20
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S10000x256, .f32⟩
  | .hbm, ⟨7, _⟩ => ⟨S10000x1, .f32⟩
  | .hbm, ⟨8, _⟩ => ⟨S10000x256, .bf16⟩
  | .hbm, ⟨9, _⟩ => ⟨S10000x256, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S1000x256, .f32⟩
  | .local _ .vmem, ⟨4, _⟩ => ⟨S1000x256, .f32⟩
  | .local _ .vmem, ⟨5, _⟩ => ⟨S200x10000, .f32⟩
  | .local _ .vmem, ⟨6, _⟩ => ⟨S200x10000, .f32⟩
  | .local _ .vmem, ⟨7, _⟩ => ⟨S200x1, .f32⟩
  | .local _ .vmem, ⟨8, _⟩ => ⟨S200x1, .f32⟩
  | .local _ .vmem, ⟨9, _⟩ => ⟨S10000x256, .f32⟩
  | .local _ .vmem, ⟨10, _⟩ => ⟨S10000x1, .f32⟩
  | .local _ .vmem, ⟨11, _⟩ => ⟨S10000x256, .bf16⟩
  | .local _ .vmem, ⟨12, _⟩ => ⟨S200x10000, .f32⟩
  | .local _ .vmem, ⟨13, _⟩ => ⟨S200x10000, .f32⟩
  | .local _ .vmem, ⟨14, _⟩ => ⟨S10000x256, .bf16⟩
  | .local _ .vmem, ⟨15, _⟩ => ⟨S200x1, .f32⟩
  | .local _ .vmem, ⟨16, _⟩ => ⟨S200x1, .f32⟩
  | .local _ .vmem, ⟨17, _⟩ => ⟨S256, .f32⟩
  | .local _ .vmem, ⟨18, _⟩ => ⟨S200x256, .f32⟩
  | .local _ .vmem, ⟨19, _⟩ => ⟨S200x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S10000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S200x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1000x256_S1000x256_0_0 : ∀ a, (![0, 0] : Fin 2 → Nat) a + S1000x256.size a ≤ S1000x256.size a
  h_S1000x256 : 0 < S1000x256.numel
  iota_S200x10000_d0_w32 : S200x10000.Iotas .tc 32 [0]
  iota_S200x10000_d1_w32 : S200x10000.Iotas .tc 32 [1]
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S200x1_S200x1_0_0 : ∀ a, (![0, 0] : Fin 2 → Nat) a + S200x1.size a ≤ S200x1.size a
  h_S200x1 : 0 < S200x1.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x256 : S10000x1.Broadcasts S10000x256
  packedbf16_S10000x256_S10000x256_0_0 : (Rect.unit (s := S10000x256) ![0, 0] S10000x256.size inb_S10000x256_S10000x256_0_0).PackedRows (EltTy.packing .bf16)
  shapeCasts_S200x1_S200x1 : S200x1.ShapeCasts S200x1
  broadcasts_S200x1_S200x256 : S200x1.Broadcasts S200x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  dot_S1000x512_S512x256_S1000x256_1_0_0_1_n_n_wf : DotDims.WF S1000x512 S512x256 S1000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x1.size a ≤ S10000x1.size a
  hwx1_1 : ∀ i : grid1.Coords, EltTy.bits .f32 = 32 ∨ (Rect.block (s := S10000x1) S200x1.size (cc1_transform_1 i) (hinb1_1 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S10000x256.size a
  hwx2_0 : ∀ i : grid2.Coords, EltTy.bits .f32 = 32 ∨ (Rect.block (s := S10000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S10000x1.size a
  hwx2_1 : ∀ i : grid2.Coords, EltTy.bits .f32 = 32 ∨ (Rect.block (s := S10000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .bf16 = 32 ∨ (Rect.block (s := S10000x256) S10000x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x1.size a ≤ S10000x1.size a
  hwx3_2 : ∀ i : grid3.Coords, EltTy.bits .f32 = 32 ∨ (Rect.block (s := S10000x1) S200x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S200x256.size a ≤ S10000x256.size a
  hwx3_4 : ∀ i : grid3.Coords, EltTy.bits .f32 = 32 ∨ (Rect.block (s := S10000x256) S200x256.size (cc3_transform_4 i) (hinb3_4 i)).WholeWords (EltTy.packing .f32)

variable [Facts₀]

def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S200x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S10000x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S10000x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S200x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S200x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x256 : Shape := ⟨2, ![512, 256]⟩
abbrev S256 : Shape := ⟨1, ![256]⟩
abbrev S10000 : Shape := ⟨1, ![10000]⟩
abbrev S_ : Shape := ⟨0, ![]⟩
abbrev S10000x1 : Shape := ⟨2, ![10000, 1]⟩
abbrev S10000x2 : Shape := ⟨2, ![10000, 2]⟩
abbrev S10000x256 : Shape := ⟨2, ![10000, 256]⟩
abbrev S1x256 : Shape := ⟨2, ![1, 256]⟩

abbrev nBuf : Space → Nat
  | .hbm => 53
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S10000, .i32⟩
  | .hbm, ⟨6, _⟩ => ⟨S_, .i32⟩
  | .hbm, ⟨7, _⟩ => ⟨S10000, .i32⟩
  | .hbm, ⟨8, _⟩ => ⟨S10000, .i1⟩
  | .hbm, ⟨9, _⟩ => ⟨S_, .i32⟩
  | .hbm, ⟨10, _⟩ => ⟨S10000, .i32⟩
  | .hbm, ⟨11, _⟩ => ⟨S10000, .i32⟩
  | .hbm, ⟨12, _⟩ => ⟨S10000, .i32⟩
  | .hbm, ⟨13, _⟩ => ⟨S_, .i32⟩
  | .hbm, ⟨14, _⟩ => ⟨S10000, .i32⟩
  | .hbm, ⟨15, _⟩ => ⟨S10000, .i1⟩
  | .hbm, ⟨16, _⟩ => ⟨S_, .i32⟩
  | .hbm, ⟨17, _⟩ => ⟨S10000, .i32⟩
  | .hbm, ⟨18, _⟩ => ⟨S10000, .i32⟩
  | .hbm, ⟨19, _⟩ => ⟨S10000, .i32⟩
  | .hbm, ⟨20, _⟩ => ⟨S10000x1, .i32⟩
  | .hbm, ⟨21, _⟩ => ⟨S10000x1, .i32⟩
  | .hbm, ⟨22, _⟩ => ⟨S10000x2, .i32⟩
  | .hbm, ⟨23, _⟩ => ⟨S_, .f32⟩
  | .hbm, ⟨24, _⟩ => ⟨S10000, .f32⟩
  | .hbm, ⟨25, _⟩ => ⟨S10000x10000, .f32⟩
  | .hbm, ⟨26, _⟩ => ⟨S_, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .i1⟩
  | .hbm, ⟨31, _⟩ => ⟨S10000, .f32⟩
  | .hbm, ⟨32, _⟩ => ⟨S_, .f32⟩
  | .hbm, ⟨33, _⟩ => ⟨S_, .f32⟩
  | .hbm, ⟨34, _⟩ => ⟨S10000, .f32⟩
  | .hbm, ⟨35, _⟩ => ⟨S10000, .f32⟩
  | .hbm, ⟨36, _⟩ => ⟨S10000x256, .f32⟩
  | .hbm, ⟨37, _⟩ => ⟨S10000x1, .f32⟩
  | .hbm, ⟨38, _⟩ => ⟨S10000x1, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S1x256, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S10000x256, .f32⟩
  | .hbm, ⟨52, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_cst : Ref sig .tc := ⟨.hbm, 50, rfl⟩
abbrev main_call1_v0 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x2_d1 : Shape.Concatenates [S10000x1, S10000x1] S10000x2 1
  reducesTo_S10000x10000_S10000_d1 : S10000x10000.ReducesTo [1] S10000
  h_S_ : 0 < S_.numel
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  scatter_S10000x10000_S10000x2_S10000_n_01_01_1_wf : ScatterDims.WF S10000x10000 S10000x2 S10000 [] [0, 1] [0, 1] 1
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []

variable [Facts₀]

def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KernelRun.lean ====
/-
  The idealized kernel program's run with its result named, and the buffers no region writes.

  The program is a bias addition on the host followed by four regions. Its run from any launch memory ends with every
  buffer at the contents the last region leaves (`W5`): in particular the result buffer `main_v4`, and the argument
  buffers, which are as launched. Between the regions a buffer that a region does not write keeps its contents, so the
  arguments read by a later region are the launch memory's, the bias sum is what the host addition wrote, and an array a
  region only reads is passed on unchanged.
-/
import proofs.«141669_j86758339379593_1_alg».proof.Proof.KernelIdealFrame
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer named -/

-- the launch theorem's implicit arguments are found by unifying its conclusion with this one, which takes unfolding
-- plain definitions in a metavariable's type
set_option backward.isDefEq.respectTransparency.types false in
/-- Every weakly fair execution of the program terminates without a fault; the result buffer ends at the contents the
    last region leaves there, and the argument arrays end as launched. -/
theorem run_result : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

/-! ## Buffers that pass through regions unwritten -/

/-- The host addition writes the bias sum only: any other buffer is as launched when region 0 is entered. -/
theorem W1_of_ne (c : Dev nD) (b : Ref sig .tc) (hb : b ≠ main_v0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-- The bias sum the host addition writes. -/
theorem W1_main_v0 (c : Dev nD) :
    (W1 m ρ c (Proc.devRef .tc main_v0) : S256.Idx → Elt F .f32)
      = addf (m ((c : Thread nD τ).loc main_arg3)) (m ((c : Thread nD τ).loc main_arg4)) := by
  show StableHlo.after hostOps0 (fun b => m (c, b)) (Proc.devRef .tc main_v0) = _
  after_results

end Cert.KernelIdeal.RunValue

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibGcnRows.lean ====
/-
  The row operations of a graph-convolution layer on arrays of extended reals, and what a row block of each holds.

  For an array `a` of `R` rows, a column `s` of `R` scales and a row `b` of biases:
  * `scaleRows a s` multiplies row `r` of `a` by `s r`;
  * `biased a s b` is `a (r, k) · s r + b k`, the normalised aggregate plus the bias;
  * `positive a` is the entrywise maximum with zero.
  A layer's transform is `rowsByCols (scaleRows h s) w`, the product of the scaled rows with the weights.

  Every one of these is computed row by row: entry `(r, k)` of the result reads row `r` of the array operands only
  (and the whole bias row, the whole weight matrix). So a block of rows computed from the same block of rows of the
  operands is that block of rows of the whole result (`…_rows`). Nothing here needs an entry to be finite: no sum
  is re-associated against a product, a product of rows by columns is one finite sum in either arrangement.
-/
import Idealize.ShloMosaic.Lib.Pipeline.Value
import Idealize.ShloMosaic.Lib.ValueIdx
import Idealize.ShloMosaic.PureOps.Ideal.Laws
import proofs.«141669_j86758339379593_1_alg».proof.Proof.LibPlainProduct
import proofs.«141669_j86758339379593_1_alg».proof.Proof.LibLayout

noncomputable section

open scoped BigOperators

namespace Cert.GcnRows

open Idealize.ShloMosaic Idealize.ShloMosaic.ValueIdx Idealize.ShloMosaic.PlainProduct

variable {R B K N : ℕ}

/-- The zero of single precision, as the programs spell it. -/
abbrev zero32 : Ideal .f32 := FloatOps.ofBits .f32 0x00000000#32

/-- Row `r` multiplied by the `r`-th entry of the column `s`. -/
def scaleRows (a : FVec Ideal ⟨2, ![R, K]⟩ .f32) (s : FVec Ideal ⟨2, ![R, 1]⟩ .f32) : FVec Ideal ⟨2, ![R, K]⟩ .f32 :=
  fun j => a j * s (ix2 (n0 := R) (n1 := 1) (j 0) 0)

/-- Row `r` multiplied by the `r`-th entry of the column `s`, plus the bias row. -/
def biased (a : FVec Ideal ⟨2, ![R, K]⟩ .f32) (s : FVec Ideal ⟨2, ![R, 1]⟩ .f32) (b : FVec Ideal ⟨2, ![1, K]⟩ .f32) :
    FVec Ideal ⟨2, ![R, K]⟩ .f32 :=
  fun j => a j * s (ix2 (n0 := R) (n1 := 1) (j 0) 0) + b (ix2 (n0 := 1) (n1 := K) 0 (j 1))

/-- The entrywise maximum with zero. -/
def positive (a : FVec Ideal ⟨2, ![R, K]⟩ .f32) : FVec Ideal ⟨2, ![R, K]⟩ .f32 :=
  fun j => max (a j) zero32

/-- A row `[1, b]` broadcast to `[a, b]` reads, at `(i, j)`, the row's entry of column `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-! ## What the kernel bodies compute from their blocks -/

/-- The column broadcast along the rows, times the block: the scaled rows. -/
theorem mulf_column (a : FVec Ideal ⟨2, ![R, K]⟩ .f32) (s : FVec Ideal ⟨2, ![R, 1]⟩ .f32)
    (h1 : (⟨2, ![R, 1]⟩ : Shape).ShapeCasts ⟨2, ![R, 1]⟩) (h2 : (⟨2, ![R, 1]⟩ : Shape).Broadcasts ⟨2, ![R, K]⟩) :
    mulf a (broadcastTo ⟨2, ![R, K]⟩ (shapeCast ⟨2, ![R, 1]⟩ s h1) h2) = scaleRows a s := by
  funext j
  obtain ⟨p, q, rfl⟩ : ∃ (p : Fin R) (q : Fin K), j = ix2 p q := ⟨j 0, j 1, eq_ix2 j⟩
  rw [shapeCast_self, mulf_apply, Cert.LibLayout.broadcastTo_a1_ab_apply]
  rfl

/-- … and with the bias row broadcast along the columns added: the biased rows. -/
theorem addf_row (a : FVec Ideal ⟨2, ![R, K]⟩ .f32) (s : FVec Ideal ⟨2, ![R, 1]⟩ .f32) (b : FVec Ideal ⟨2, ![1, K]⟩ .f32)
    (h1 : (⟨2, ![R, 1]⟩ : Shape).ShapeCasts ⟨2, ![R, 1]⟩) (h2 : (⟨2, ![R, 1]⟩ : Shape).Broadcasts ⟨2, ![R, K]⟩)
    (h0 : (⟨2, ![R, K]⟩ : Shape).ShapeCasts ⟨2, ![R, K]⟩)
    (h3 : (⟨2, ![1, K]⟩ : Shape).ShapeCasts ⟨2, ![1, K]⟩) (h4 : (⟨2, ![1, K]⟩ : Shape).Broadcasts ⟨2, ![R, K]⟩) :
    addf (mulf (shapeCast ⟨2, ![R, K]⟩ a h0) (broadcastTo ⟨2, ![R, K]⟩ (shapeCast ⟨2, ![R, 1]⟩ s h1) h2))
        (broadcastTo ⟨2, ![R, K]⟩ (shapeCast ⟨2, ![1, K]⟩ b h3) h4) = biased a s b := by
  funext j
  obtain ⟨p, q, rfl⟩ : ∃ (p : Fin R) (q : Fin K), j = ix2 p q := ⟨j 0, j 1, eq_ix2 j⟩
  rw [shapeCast_self, shapeCast_self, shapeCast_self, addf_apply, mulf_apply, Cert.LibLayout.broadcastTo_a1_ab_apply,
    broadcastTo_1b_ab_apply]
  rfl

/-- The maximum with the zero scalar repeated over the block: the positive part. -/
theorem maximumf_zero (a : FVec Ideal ⟨2, ![R, K]⟩ .f32) :
    maximumf a (broadcast ⟨2, ![R, K]⟩ (Scalar.ofBits (F := Ideal) .f32 0x00000000#32)) = positive a := rfl

/-- The product of a block (its format narrowed, which changes nothing on the extended reals) with the weights, into
    the zero accumulator: the block's rows by the weights' columns. -/
theorem matmul_block {φ : FTy} (x : FVec Ideal ⟨2, ![R, K]⟩ .f32) (w : FVec Ideal ⟨2, ![K, N]⟩ φ) (hb : FTy.bf16.bits < FTy.f32.bits)
    (h3 : (⟨2, ![K, N]⟩ : Shape).ShapeCasts ⟨2, ![K, N]⟩) :
    matmul (DotDims.plain R K N) none (truncf .bf16 x hb) (shapeCast ⟨2, ![K, N]⟩ w h3) (constant ⟨2, ![R, N]⟩ .f32 0x00000000#32)
      = rowsByCols x w := by
  rw [shapeCast_self]
  exact matmul_zero_plain none (truncf .bf16 x hb) w

/-! ## Row blocks -/

section Rows

variable (e : Fin B → Fin R)

theorem scaleRows_rows (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    scaleRows ab sb (ix2 (n0 := B) (n1 := K) r k) = scaleRows a s (ix2 (n0 := R) (n1 := K) (e r) k) :=
  congrArg₂ (· * ·) (ha r k) (hs r)

theorem biased_rows (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (r : Fin B) (k : Fin K) :
    biased ab sb b (ix2 (n0 := B) (n1 := K) r k) = biased a s b (ix2 (n0 := R) (n1 := K) (e r) k) :=
  congrArg₂ (· + ·) (congrArg₂ (· * ·) (ha r k) (hs r)) rfl

theorem positive_rows (a : FVec Ideal ⟨2, ![R, K]⟩ .f32) (ab : FVec Ideal ⟨2, ![B, K]⟩ .f32)
    (ha : ∀ (r : Fin B) (k : Fin K), ab (ix2 (n0 := B) (n1 := K) r k) = a (ix2 (n0 := R) (n1 := K) (e r) k))
    (r : Fin B) (k : Fin K) :
    positive ab (ix2 (n0 := B) (n1 := K) r k) = positive a (ix2 (n0 := R) (n1 := K) (e r) k) :=
  congrArg (max · zero32) (ha r k)

/-- The same three laws read at any index `j` of the block: its row is `j 0`, its column `j 1`. -/
theorem scaleRows_block (a : FVec Ideal ⟨2, ![R, K]⟩ .f32) (s : FVec Ideal ⟨2, ![R, 1]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    scaleRows ab sb j = scaleRows a s (ix2 (n0 := R) (n1 := K) (e (j 0)) (j 1)) :=
  (congrArg (scaleRows ab sb) (eq_ix2 j)).trans (scaleRows_rows e a s ab sb ha hs (j 0) (j 1))

theorem biased_block (a : FVec Ideal ⟨2, ![R, K]⟩ .f32) (s : FVec Ideal ⟨2, ![R, 1]⟩ .f32) (b : FVec Ideal ⟨2, ![1, K]⟩ .f32)
    (ab : FVec Ideal ⟨2, ![B, K]⟩ .f32) (sb : FVec Ideal ⟨2, ![B, 1]⟩ .f32)
    (ha : ∀ (r : Fin B) (k : Fin K), ab (ix2 (n0 := B) (n1 := K) r k) = a (ix2 (n0 := R) (n1 := K) (e r) k))
    (hs : ∀ r : Fin B, sb (ix2 (n0 := B) (n1 := 1) r 0) = s (ix2 (n0 := R) (n1 := 1) (e r) 0))
    (j : (⟨2, ![B, K]⟩ : Shape).Idx) :
    biased ab sb b j = biased a s b (ix2 (n0 := R) (n1 := K) (e (j 0)) (j 1)) :=
  (congrArg (biased ab sb b) (eq_ix2 j)).trans (biased_rows e a s b ab sb ha hs (j 0) (j 1))

end Rows

/-! ## A vector as a column, a vector as a row -/

/-- The vector `v` as the column `[n, 1]`. -/
def col {n : ℕ} (v : FVec Ideal ⟨1, ![n]⟩ .f32) : FVec Ideal ⟨2, ![n, 1]⟩ .f32 := fun i => v (ix1 (n := n) (i 0))

/-- The vector `b` as the row `[1, k]`. -/
def rowv {k : ℕ} (b : FVec Ideal ⟨1, ![k]⟩ .f32) : FVec Ideal ⟨2, ![1, k]⟩ .f32 := fun i => b (ix1 (n := k) (i 1))

end Cert.GcnRows

end
-- ==== Proof.LayerSpec.lean ====
/-
  The graph-convolution layer as one function of its five argument arrays, on the extended reals.

  For an adjacency array `a` of `n × n` weights:
  * `selfLoops a` is `a` with every diagonal entry replaced by one;
  * `invSqrtDeg a` is the column whose entry `r` is `d ^ (-1/2)` for the degree `d = ∑ k, selfLoops a (r, k)` of row `r`
    when `d` is positive, and zero otherwise.
  With `h = x · w` (rows by columns) and `s = invSqrtDeg a`, the layer's output is
      `max (((selfLoops a) · (h scaled row by row by s)) (r, k) · s r + (b₁ + b₂) k, 0)`.
  Everything is built from the row operations of `Cert.GcnRows` and the product `rowsByCols`; no entry needs to be
  finite for these definitions to make sense.
-/
import Idealize.ShloMosaic.Lib.ValueIdx
import Idealize.ShloMosaic.PureOps.Ideal.Laws
import proofs.«141669_j86758339379593_1_alg».proof.Proof.LibPlainProduct
import proofs.«141669_j86758339379593_1_alg».proof.Proof.LibGcnRows

noncomputable section

open scoped BigOperators

namespace Cert.GcnLayer

open Idealize.ShloMosaic Idealize.ShloMosaic.ValueIdx Idealize.ShloMosaic.PlainProduct Cert.GcnRows

/-- The one of single precision, as the programs spell it. -/
abbrev one32 : Ideal .f32 := FloatOps.ofBits .f32 0x3F800000#32

/-- The adjacency array with a unit diagonal: entry `(r, k)` is one when `r = k`, and `a (r, k)` otherwise. -/
def selfLoops {n : ℕ} (a : FVec Ideal ⟨2, ![n, n]⟩ .f32) : FVec Ideal ⟨2, ![n, n]⟩ .f32 :=
  fun j => if (j 0).val = (j 1).val then one32 else a j

/-- The degree of row `r`: the sum of the row of `selfLoops a`. -/
def degree {n : ℕ} (a : FVec Ideal ⟨2, ![n, n]⟩ .f32) (r : Fin n) : Ideal .f32 :=
  ∑ k : Fin n, selfLoops a (ix2 (n0 := n) (n1 := n) r k)

/-- The normalising scale of a degree `d`: its inverse square root when `d` is positive, zero otherwise. -/
def invSqrtPos (d : Ideal .f32) : Ideal .f32 :=
  Scalar.select (Ideal.cmp .ogt d zero32) (Ideal.rsqrt d) zero32

/-- The column of normalising scales, one per row. -/
def invSqrtDeg {n : ℕ} (a : FVec Ideal ⟨2, ![n, n]⟩ .f32) : FVec Ideal ⟨2, ![n, 1]⟩ .f32 :=
  fun j => invSqrtPos (degree a (j 0))

/-- The layer's output from the normalised adjacency's ingredients: features `x`, adjacency `a`, weights `w` and the two
    bias vectors. -/
def layer {n k o : ℕ} (x : FVec Ideal ⟨2, ![n, k]⟩ .f32) (a : FVec Ideal ⟨2, ![n, n]⟩ .f32) (w : FVec Ideal ⟨2, ![k, o]⟩ .f32)
    (b₁ b₂ : FVec Ideal ⟨1, ![o]⟩ .f32) : FVec Ideal ⟨2, ![n, o]⟩ .f32 :=
  positive (biased (rowsByCols (selfLoops a) (scaleRows (rowsByCols x w) (invSqrtDeg a))) (invSqrtDeg a) (rowv (addf b₁ b₂)))

/-- The same output in the arrangement of a program that scales on the left and adds the two biases one after the other:
    `max ((s r · ∑ q, selfLoops a (r, q) · (s q · h (q, k)) + b₁ k) + b₂ k, 0)`. -/
def layerRef {n k o : ℕ} (x : FVec Ideal ⟨2, ![n, k]⟩ .f32) (a : FVec Ideal ⟨2, ![n, n]⟩ .f32) (w : FVec Ideal ⟨2, ![k, o]⟩ .f32)
    (b₁ b₂ : FVec Ideal ⟨1, ![o]⟩ .f32) : FVec Ideal ⟨2, ![n, o]⟩ .f32 :=
  fun j => max (((invSqrtDeg a (ix2 (n0 := n) (n1 := 1) (j 0) 0)
        * ∑ q : Fin n, selfLoops a (ix2 (n0 := n) (n1 := n) (j 0) q)
            * (invSqrtDeg a (ix2 (n0 := n) (n1 := 1) q 0) * rowsByCols x w (ix2 (n0 := n) (n1 := o) q (j 1))))
      + b₁ (ix1 (n := o) (j 1))) + b₂ (ix1 (n := o) (j 1))) zero32

end Cert.GcnLayer

end
-- ==== Proof.LinearRegion.lean ====
/-
  The linear region: the features times the weights, one block of a thousand rows at a time.

  The region's grid has ten points. At point `t` the body reads rows `t · 1000 … t · 1000 + 999` of the features
  (all 512 columns) and the whole 512 × 256 weight array, narrows both formats (which changes no value on the
  extended reals), multiplies them into a zero accumulator and writes the 1000 × 256 result to rows
  `t · 1000 …` of the product array. Row `r` of a product of rows by columns reads row `r` of the left operand only,
  so each block written is that block of rows of the whole product `rowsByCols x w`; the ten blocks cover the
  10000 rows, so the array ends holding the whole product.
-/
import proofs.«141669_j86758339379593_1_alg».proof.Proof.KernelIdealFrame
import proofs.«141669_j86758339379593_1_alg».proof.Proof.LayerSpec

set_option maxRecDepth 16384

noncomputable section

namespace Cert.KernelIdeal.LinearRegion

open Idealize.ShloMosaic Idealize.ShloMosaic.TcCoe Idealize.SL.Sem
open Idealize.ShloMosaic.Pipeline (Dat Cfg Window)
open Cert.KernelIdeal Cert.KernelIdeal.Gen
open Idealize.ShloMosaic.ValueIdx Idealize.ShloMosaic.PlainProduct Cert.GcnRows Cert.GcnLayer

/-- The zero offsets, as a constant function. -/
theorem hz : (![0, 0] : Fin 2 → Nat) = fun _ => 0 := funext fun a => by fin_cases a <;> rfl

/-- The body's dimension numbers are the plain ones: contract the left operand's columns with the right operand's rows. -/
theorem dot_plain : dot_S1000x512_S512x256_S1000x256_1_0_0_1_n_n = DotDims.plain 1000 512 256 := rfl

/-- What the body stores, as a function of the two blocks it loads: their product rows by columns. -/
theorem payload (x0 : FVec Ideal S1000x512 .f32) (x1 : FVec Ideal S512x256 .f32) :
    k0_pay1 (F := Ideal) x0 x1 = rowsByCols (M := 1000) (K := 512) (N := 256) x0 x1 := by
  unfold k0_pay1
  rw [dot_plain]
  exact matmul_zero_plain none (truncf .bf16 x0 bitsLt_bf16_f32) (truncf .bf16 x1 bitsLt_bf16_f32)

/-- The block index maps over the grid: the features' and the product's row block is the point's number, their column
    block and both of the weights' block indices are zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Each of the ten row blocks of the product is some point's. -/
theorem idx_onto : ∀ q : Fin 10, ∃ t : Fin cfg0.N, win0_2.index t = ![q.val, 0] :=
  (by decide +kernel : ∀ q : Fin 10, ∃ t : Fin grid0.N, win0_2.index t = ![q.val, 0])

variable (V : (c : Dev nD) → (b : Ref sig .tc) → Buf (Elt Ideal) ((c : Thread nD τ).loc b))

theorem lt_ten (t : Fin cfg0.N) : t.val < 10 := lt_of_lt_of_eq t.isLt N_0

/-- Row `r` of row block `t` is row `t · 1000 + r` of the array. -/
def rowOf (t : Fin cfg0.N) (r : Fin 1000) : Fin 10000 :=
  ⟨t.val * 1000 + r.val, by have := lt_ten t; have := r.isLt; omega⟩

/-- The left operand's block at point `t` holds rows `t · 1000 …` of the features. -/
theorem lhs_block (c : Dev nD) (t : Fin cfg0.N) (r : Fin 1000) (k : Fin 512) :
    (GenP.iblk0 (F := Ideal) V c 0 t : FVec Ideal S1000x512 .f32) (ix2 r k)
      = (V c main_arg0 : FVec Ideal S10000x512 .f32) (ix2 (rowOf t r) k) := by
  obtain ⟨e0, e1, -⟩ := idx_facts t
  unfold GenP.iblk0
  rw [View.read_apply]
  show V c main_arg0 _ = V c main_arg0 _
  congr 1
  funext a
  apply Fin.ext
  match a with
  | ⟨0, _⟩ => show win0_0.index t 0 * 1000 + 1 * r.val = t.val * 1000 + r.val; rw [e0]; omega
  | ⟨1, _⟩ => show win0_0.index t 1 * 512 + 1 * k.val = k.val; rw [e1]; omega

/-- The right operand's block at every point is the whole weight array. -/
theorem rhs_block (c : Dev nD) (t : Fin cfg0.N) :
    (GenP.iblk0 (F := Ideal) V c 1 t : FVec Ideal S512x256 .f32) = (V c main_arg2 : FVec Ideal S512x256 .f32) := by
  obtain ⟨-, -, e2, e3, -⟩ := idx_facts t
  funext y
  unfold GenP.iblk0
  rw [View.read_apply]
  show V c main_arg2 _ = V c main_arg2 _
  congr 1
  funext a
  apply Fin.ext
  match a with
  | ⟨0, _⟩ => show win0_1.index t 0 * 512 + 1 * (y 0).val = (y 0).val; rw [e2]; omega
  | ⟨1, _⟩ => show win0_1.index t 1 * 256 + 1 * (y 1).val = (y 1).val; rw [e3]; omega

/-- What point `t` writes back is block `t` of the whole product. -/
theorem flushed_eq (c : Dev nD) (t : Fin cfg0.N) :
    (GenP.dat0 (F := Ideal) V c).flushed 2 t
      = ((cfg0.win 2).blk t).view.read (Elt Ideal)
          (rowsByCols (φ₁ := .f32) (φ₂ := .f32) (M := 10000) (K := 512) (N := 256) (V c main_arg0) (V c main_arg2)) := by
  show (cfg0.win 2).cut (grid0.coords t) ((GenP.dat0 V c).after 2 t) = _
  rw [GenP.after0_2]
  unfold GenP.out0_2
  rw [View.canon_unit_zero hz]
  simp only [View.ld_unit_zero (S := S1000x512) hz, View.ld_unit_zero (S := S512x256) hz]
  rw [payload, rhs_block]
  obtain ⟨-, -, -, -, e4, e5⟩ := idx_facts t
  funext j
  show rowsByCols (φ₁ := .f32) (φ₂ := .f32) (M := 1000) (K := 512) (N := 256) (GenP.iblk0 V c 0 t) (V c main_arg2) j
    = rowsByCols (φ₁ := .f32) (φ₂ := .f32) (M := 10000) (K := 512) (N := 256) (V c main_arg0) (V c main_arg2) (((cfg0.win 2).blk t).view.emb j)
  refine (rowsByCols_rows (φ₁ := .f32) (φ₂ := .f32) (M := 10000) (K := 512) (N := 256) (B := 1000) (V c main_arg0) (V c main_arg2) (GenP.iblk0 V c 0 t) (rowOf t) (lhs_block V c t) j).trans ?_
  congr 1
  funext a
  apply Fin.ext
  match a with
  | ⟨0, _⟩ => show t.val * 1000 + (j 0).val = win0_2.index t 0 * 1000 + 1 * (j 0).val; rw [e4]; omega
  | ⟨1, _⟩ => show (j 1).val = win0_2.index t 1 * 256 + 1 * (j 1).val; rw [e5]; omega

/-- An index of the product array lies in point `t`'s block iff each coordinate lies in the block's range. -/
theorem mem_blk (t : Fin cfg0.N) (i : S10000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v1).slice (win0_2.rect t)).set ↔ _
  rw [View.set_slice_whole, Rect.mem_set_unit]
  exact Iff.rfl

/-- Every row `r` of the product array is in the block of point `r / 1000`. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- After the ten points the product array holds the features' rows by the weights' columns. -/
theorem final (c : Dev nD) :
    (GenP.dat0 (F := Ideal) V c).arrAt 2 cfg0.N
      = rowsByCols (φ₁ := .f32) (φ₂ := .f32) (M := 10000) (K := 512) (N := 256) (V c main_arg0) (V c main_arg2) :=
  (GenP.dat0 V c).arrAt_eq_of_cover 2 _ (fun t _ => flushed_eq V c t) cover

end Cert.KernelIdeal.LinearRegion

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.DiagonalMask.lean ====
/-
  The diagonal mask of a block of rows, read at an entry.

  A block of 200 rows of a square array of 10000 columns, the block starting at row `200 · t`, has its entry
  `(p, j)` on the array's diagonal exactly when `200 · t + p = j`. The programs compute that test on 32-bit words:
  the row number `200 · t + p` and the column number `j` are both far below `2 ^ 32`, so the words are equal
  exactly when the numbers are. Selecting one on the diagonal and the block's own entry elsewhere therefore gives
  `if 200 · t + p = j then 1 else x (p, j)`.
-/
import Idealize.ShloMosaic.Lib.Pipeline.Value
import Idealize.ShloMosaic.Lib.ValueIdx
import Idealize.ShloMosaic.PureOps.Ideal.Laws
import proofs.«141669_j86758339379593_1_alg».proof.Proof.LayerSpec

noncomputable section

namespace Cert.DiagonalMask

open Idealize.ShloMosaic Idealize.ShloMosaic.ValueIdx Cert.GcnLayer

/-- Row number and column number as 32-bit words: equal words, equal numbers. -/
theorem word_eq_iff (t p j : ℕ) (ht : t < 50) (hp : p < 200) (hj : j < 10000) :
    (BitVec.ofNat 32 t * 200#32 + BitVec.ofNat 32 p = BitVec.ofNat 32 j) ↔ t * 200 + p = j := by
  constructor
  · intro h
    have h' := congrArg BitVec.toNat h
    simp only [BitVec.toNat_add, BitVec.toNat_mul, BitVec.toNat_ofNat, Nat.reducePow, Nat.reduceMod] at h'
    omega
  · intro h
    subst h
    apply BitVec.eq_of_toNat_eq
    simp only [BitVec.toNat_add, BitVec.toNat_mul, BitVec.toNat_ofNat, Nat.reducePow, Nat.reduceMod]
    omega

/-- The integer comparison for equality answers the bit one exactly on equal words. -/
theorem cmpi_eq_one_iff (a b : BitVec 32) : IntOp.cmpi .eq a b = 1 ↔ a = b := by
  show BitVec.ofBool (a == b) = 1#1 ↔ a = b
  by_cases h : a = b
  · subst h; simp
  · rw [beq_eq_false_iff_ne.mpr h]
    exact ⟨fun e => absurd e (by decide), fun e => absurd e h⟩

/-- The block of rows with ones selected on the array's diagonal, at entry `(p, j)`. -/
theorem masked_apply (t : ℕ) (ht : t < 50)
    (h0 : (⟨2, ![200, 10000]⟩ : Shape).Iotas .tc 32 [(0 : Fin 2)]) (h1 : (⟨2, ![200, 10000]⟩ : Shape).Iotas .tc 32 [(1 : Fin 2)])
    (x : FVec Ideal ⟨2, ![200, 10000]⟩ .f32) (p : Fin 200) (j : Fin 10000) :
    select (cmpi .eq (addi (broadcast ⟨2, ![200, 10000]⟩ (Scalar.muli (BitVec.ofNat 32 t) 200#32)) (iota .tc ⟨2, ![200, 10000]⟩ 32 [(0 : Fin 2)] h0))
        (iota .tc ⟨2, ![200, 10000]⟩ 32 [(1 : Fin 2)] h1))
      (broadcast ⟨2, ![200, 10000]⟩ (Scalar.ofBits (F := Ideal) .f32 0x3F800000#32)) x (ix2 p j)
    = if t * 200 + p.val = j.val then one32 else x (ix2 p j) := by
  rw [select_apply]
  show Scalar.select (IntOp.cmpi .eq (IntOp.addi (Scalar.muli (BitVec.ofNat 32 t) 200#32) (iota .tc ⟨2, ![200, 10000]⟩ 32 [(0 : Fin 2)] h0 (ix2 p j)))
      (iota .tc ⟨2, ![200, 10000]⟩ 32 [(1 : Fin 2)] h1 (ix2 p j))) one32 (x (ix2 p j)) = _
  rw [iota_single_apply, iota_single_apply]
  show (if IntOp.cmpi .eq (BitVec.ofNat 32 t * 200#32 + BitVec.ofNat 32 p.val) (BitVec.ofNat 32 j.val) = 1 then one32 else x (ix2 p j)) = _
  exact if_congr ((cmpi_eq_one_iff _ _).trans (word_eq_iff t p.val j.val ht p.isLt j.isLt)) rfl rfl

end Cert.DiagonalMask

end
-- ==== Proof.DegreeRegion.lean ====
/-
  The degree region: fifty grid points, point `t` taking rows `200 t … 200 t + 199` of the 10000 × 10000 adjacency array and
  leaving rows `200 t … 200 t + 199` of a 10000 × 1 column.

  At a point the body replaces the block's entries on the array's diagonal (row `p` of block `t` meets it at column
  `200 t + p`) by one, sums every row, and turns each row total `d` into `d ^ (-1/2)` when `d` is positive and zero otherwise.
  Row `p` of block `t` is row `200 t + p` of the array and the block spans all the columns, so the row total is the degree
  of that row of the array with unit self loops, and the value written is its normalising scale. The fifty blocks tile the
  column, so after the region the column is `invSqrtDeg` of the adjacency array as the region found it.
-/
import proofs.«141669_j86758339379593_1_alg».proof.Proof.KernelIdealFrame
import proofs.«141669_j86758339379593_1_alg».proof.Proof.LayerSpec
import proofs.«141669_j86758339379593_1_alg».proof.Proof.LibRows
import proofs.«141669_j86758339379593_1_alg».proof.Proof.DiagonalMask

set_option maxRecDepth 16384

noncomputable section

open Idealize.ShloMosaic Idealize.ShloMosaic.TcCoe Idealize.SL.Sem
open Idealize.ShloMosaic.Pipeline (Dat Cfg Window)
open Cert.KernelIdeal Cert.KernelIdeal.Gen
open Idealize.ShloMosaic.ValueIdx Idealize.ShloMosaic.PlainProduct Cert.GcnRows Cert.GcnLayer

namespace Cert.KernelIdeal.DegreeRegion

/-- The row totals of the masked block, as a column: entry `(p, u)` is the sum over the row of the block with its
    diagonal entries (those at column `t · 200 + p`) replaced by one. -/
theorem rowTotal_apply (t : ℕ) (ht : t < 50) (x : FVec Ideal S200x10000 .f32) (p : Fin 200) (u : Fin 1) :
    shapeCast S200x1 (multiReduction .add [1] S200
        (select (cmpi .eq (addi (broadcast S200x10000 (Scalar.muli (BitVec.ofNat 32 t) 200#32))
            (iota .tc S200x10000 32 [0] iota_S200x10000_d0_w32)) (iota .tc S200x10000 32 [1] iota_S200x10000_d1_w32))
          (broadcast S200x10000 (Scalar.ofBits (F := Ideal) .f32 0x3F800000#32)) x)
        0x00000000#32 reduces_S200x10000_S200 (.inl rfl) rfl) shapeCasts_S200_S200x1 (ix2 p u)
      = ∑ s : Fin 10000, if t * 200 + p.val = s.val then one32 else x (ix2 p s) :=
  (Cert.LibLayout.shapeCast_a_a1_apply _ _ p u).trans
    ((Cert.LibRows.rowSum_apply _ _ _ _ _ p).trans
      (Finset.sum_congr rfl fun s _ => Cert.DiagonalMask.masked_apply t ht _ _ x p s))

/-- The positive-part inverse square root of a column, entry by entry. -/
theorem scale_apply (d : FVec Ideal S200x1 .f32) (j : S200x1.Idx) :
    select (cmpf .ogt d (broadcast S200x1 (Scalar.ofBits (F := Ideal) .f32 0x00000000#32))) (rsqrt d)
        (broadcast S200x1 (Scalar.ofBits (F := Ideal) .f32 0x00000000#32)) j = invSqrtPos (d j) := rfl

/-- The body's column at row `p`. -/
theorem pay_apply (i : grid1.Coords) (x : FVec Ideal S200x10000 .f32) (p : Fin 200) (u : Fin 1) :
    k1_pay1 (F := Ideal) i x (ix2 p u)
      = invSqrtPos (∑ s : Fin 10000, if (i 0).val * 200 + p.val = s.val then one32 else x (ix2 p s)) := by
  have hi : (i 0).val < 50 := (i 0).isLt
  unfold k1_pay1
  exact (scale_apply _ _).trans (congrArg invSqrtPos (rowTotal_apply (i 0).val hi x p u))

theorem hz : (![0, 0] : Fin 2 → Nat) = fun _ => 0 := funext fun a => by fin_cases a <;> rfl

/-- The two windows' index maps over the grid: at point `t` both sit at row block `t` and column block 0, and the grid
    coordinate the body reads is `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 ∧ ((grid1.coords t) 0).val = t.val :=
  (by decide +kernel : ∀ t : Fin grid1.N, _)

/-- Every row block of the column is some point's. -/
theorem idx_onto : ∀ q : Fin 50, ∃ t : Fin cfg1.N, win1_1.index t = ![q.val, 0] :=
  (by decide +kernel : ∀ q : Fin 50, ∃ t : Fin grid1.N, win1_1.index t = ![q.val, 0])

variable (V : (c : Dev nD) → (b : Ref sig .tc) → Buf (Elt Ideal) ((c : Thread nD τ).loc b))

/-- Row `p` of the adjacency block at point `t` is row `t · 200 + p` of the array; the block spans every column. -/
theorem iblk_apply (c : Dev nD) (t : Fin cfg1.N) (p : Fin 200) (k : Fin 10000) (h : t.val * 200 + p.val < 10000) :
    (GenP.iblk1 V c 0 t : FVec Ideal S200x10000 .f32) (ix2 p k)
      = (V c main_arg1 : S10000x10000.Idx → Ideal .f32) (ix2 (⟨t.val * 200 + p.val, h⟩ : Fin 10000) k) := by
  obtain ⟨e0, e1, -⟩ := idx_facts t
  unfold GenP.iblk1
  rw [View.read_apply]
  show V c main_arg1 _ = V c main_arg1 _
  congr 1
  funext a
  apply Fin.ext
  match a with
  | ⟨0, _⟩ => show win1_0.index t (0 : Fin 2) * 200 + 1 * p.val = t.val * 200 + p.val; rw [e0]; omega
  | ⟨1, _⟩ => show win1_0.index t (1 : Fin 2) * 10000 + 1 * k.val = k.val; rw [e1]; omega

/-- What the body computes from the block at point `t`, at row `p`: the scale of row `t · 200 + p` of the array. -/
theorem block_apply (c : Dev nD) (t : Fin cfg1.N) (p : Fin 200) (u : Fin 1) (h : t.val * 200 + p.val < 10000) :
    k1_pay1 (F := Ideal) (grid1.coords t) (GenP.iblk1 V c 0 t) (ix2 p u)
      = invSqrtPos (degree (n := 10000) (V c main_arg1) ⟨t.val * 200 + p.val, h⟩) := by
  obtain ⟨-, -, -, -, e4⟩ := idx_facts t
  refine (pay_apply (grid1.coords t) (GenP.iblk1 V c 0 t) p u).trans (congrArg invSqrtPos ?_)
  refine Finset.sum_congr rfl fun s _ => ?_
  exact if_congr (by rw [e4]) rfl (iblk_apply V c t p s h)

/-- What point `t` writes back is block `t` of the column of normalising scales of the adjacency array. -/
theorem flushed_eq (c : Dev nD) (t : Fin cfg1.N) :
    (GenP.dat1 (F := Ideal) V c).flushed 1 t
      = ((cfg1.win 1).blk t).view.read (Elt Ideal) (invSqrtDeg (n := 10000) (V c main_arg1)) := by
  show (cfg1.win 1).cut (grid1.coords t) ((GenP.dat1 V c).after 1 t) = _
  rw [GenP.after1_1]
  unfold GenP.out1_1
  rw [View.canon_unit_zero hz]
  simp only [View.ld_unit_zero (S := S200x10000) hz]
  obtain ⟨-, -, e2, e3, -⟩ := idx_facts t
  have hN : t.val < 50 := t.isLt
  funext j
  obtain ⟨p, u, rfl⟩ : ∃ (p : Fin 200) (u : Fin 1), j = ix2 p u := ⟨j 0, j 1, eq_ix2 j⟩
  have hp : p.val < 200 := p.isLt
  have h : t.val * 200 + p.val < 10000 := by omega
  have hr : (((cfg1.win 1).blk t).view.emb (ix2 p u) 0 : Fin 10000) = ⟨t.val * 200 + p.val, h⟩ :=
    Fin.ext (by show win1_1.index t (0 : Fin 2) * 200 + 1 * p.val = t.val * 200 + p.val; rw [e2]; omega)
  refine (block_apply V c t p u h).trans ?_
  rw [View.read_apply]
  exact congrArg (fun r : Fin 10000 => invSqrtPos (degree (n := 10000) (V c main_arg1) r)) hr.symm

/-- An index of the column is in point `t`'s block iff each coordinate is in the block's range on its axis. -/
theorem mem_blk (t : Fin cfg1.N) (i : S10000x1.Idx) :
    i ∈ ((cfg1.win 1).blk t).view.set ↔ ∀ a : Fin 2, win1_1.index t a * S200x1.size a ≤ (i a).val
      ∧ (i a).val < win1_1.index t a * S200x1.size a + S200x1.size a := by
  show i ∈ ((View.whole main_v2).slice (win1_1.rect t)).set ↔ _
  rw [View.set_slice_whole, Rect.mem_set_unit]
  exact Iff.rfl

/-- Every row of the column is in the block of the point numbered by its row block. -/
theorem cover (i : S10000x1.Idx) :
    ∃ t : Fin cfg1.N, (cfg1.win 1).flush t = true ∧ i ∈ ((cfg1.win 1).blk t).view.set := by
  have hi0 : (i 0).val < 10000 := (i 0).isLt
  have hi1 : (i 1).val < 1 := (i 1).isLt
  obtain ⟨t, ht⟩ := idx_onto ⟨(i 0).val / 200, by omega⟩
  have q0 : win1_1.index t (0 : Fin 2) = (i 0).val / 200 := congrFun ht 0
  have q1 : win1_1.index t (1 : Fin 2) = 0 := congrFun ht 1
  refine ⟨t, flush1_1 t, ?_⟩
  rw [mem_blk]
  intro a
  match a with
  | ⟨0, _⟩ =>
    show win1_1.index t (0 : Fin 2) * 200 ≤ (i 0).val ∧ (i 0).val < win1_1.index t (0 : Fin 2) * 200 + 200
    omega
  | ⟨1, _⟩ =>
    show win1_1.index t (1 : Fin 2) * 1 ≤ (i 1).val ∧ (i 1).val < win1_1.index t (1 : Fin 2) * 1 + 1
    omega

/-- After the region the column holds the normalising scale of every row of the adjacency array. -/
theorem final (c : Dev nD) :
    (GenP.dat1 (F := Ideal) V c).arrAt 1 cfg1.N = invSqrtDeg (n := 10000) (V c main_arg1) :=
  (GenP.dat1 (F := Ideal) V c).arrAt_eq_of_cover 1 (invSqrtDeg (n := 10000) (V c main_arg1))
    (fun t _ => flushed_eq V c t) cover

end Cert.KernelIdeal.DegreeRegion

end
-- ==== Proof.ScaleRegion.lean ====
/-
  The scale region: every row of the product array multiplied by its row's normalising scale.

  The region's grid has one point, and all three windows are the whole arrays. The body reads the 10000 × 256 array
  and the 10000 × 1 column of scales, repeats the column along the rows, multiplies entry by entry and narrows the
  format of the result (which changes no value on the extended reals): entry `(r, k)` of what it writes is
  `a (r, k) · s r`, that is `scaleRows a s`. The one block written is the whole array.
-/
import proofs.«141669_j86758339379593_1_alg».proof.Proof.KernelIdealFrame
import proofs.«141669_j86758339379593_1_alg».proof.Proof.LayerSpec

set_option maxRecDepth 16384

noncomputable section

namespace Cert.KernelIdeal.ScaleRegion

open Idealize.ShloMosaic Idealize.ShloMosaic.TcCoe Idealize.SL.Sem
open Idealize.ShloMosaic.Pipeline (Dat Cfg Window)
open Cert.KernelIdeal Cert.KernelIdeal.Gen
open Idealize.ShloMosaic.ValueIdx Idealize.ShloMosaic.PlainProduct Cert.GcnRows Cert.GcnLayer

variable (V : (c : Dev nD) → (b : Ref sig .tc) → Buf (Elt Ideal) ((c : Thread nD τ).loc b))

/-- The zero offsets, as a constant function. -/
theorem hz : (![0, 0] : Fin 2 → Nat) = fun _ => 0 := funext fun a => by fin_cases a <;> rfl

/-- What the body stores, entry by entry, as a function of the two arrays it loads: the rows scaled by the column. -/
theorem payload (x0 : FVec Ideal S10000x256 .f32) (x1 : FVec Ideal S10000x1 .f32) (j : S10000x256.Idx) :
    k2_pay1 (F := Ideal) x0 x1 j = scaleRows (R := 10000) (K := 256) x0 x1 j := by
  unfold k2_pay1
  rw [shapeCast_self x0]
  exact (truncf_apply _ bitsLt_bf16_f32 j).trans
    (congrFun (mulf_column x0 x1 shapeCasts_S10000x1_S10000x1 broadcasts_S10000x1_S10000x256) j)

/-- Every block index of every window is zero at the one point of the grid. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- The first window's block is the whole product array. -/
theorem arr_block (c : Dev nD) (t : Fin cfg2.N) :
    (GenP.iblk2 (F := Ideal) V c 0 t : FVec Ideal S10000x256 .f32) = (V c main_v1 : FVec Ideal S10000x256 .f32) := by
  obtain ⟨e0, e1, -⟩ := idx_facts t
  funext y
  unfold GenP.iblk2
  rw [View.read_apply]
  show V c main_v1 _ = V c main_v1 _
  congr 1
  funext a
  apply Fin.ext
  match a with
  | ⟨0, _⟩ => show win2_0.index t 0 * 10000 + 1 * (y 0).val = (y 0).val; rw [e0]; omega
  | ⟨1, _⟩ => show win2_0.index t 1 * 256 + 1 * (y 1).val = (y 1).val; rw [e1]; omega

/-- The second window's block is the whole column of scales. -/
theorem col_block (c : Dev nD) (t : Fin cfg2.N) :
    (GenP.iblk2 (F := Ideal) V c 1 t : FVec Ideal S10000x1 .f32) = (V c main_v2 : FVec Ideal S10000x1 .f32) := by
  obtain ⟨-, -, e2, e3, -⟩ := idx_facts t
  funext y
  unfold GenP.iblk2
  rw [View.read_apply]
  show V c main_v2 _ = V c main_v2 _
  congr 1
  funext a
  apply Fin.ext
  match a with
  | ⟨0, _⟩ => show win2_1.index t 0 * 10000 + 1 * (y 0).val = (y 0).val; rw [e2]; omega
  | ⟨1, _⟩ => show win2_1.index t 1 * 1 + 1 * (y 1).val = (y 1).val; rw [e3]; omega

/-- What the one point writes back is the (one, whole) block of the scaled rows. -/
theorem flushed_eq (c : Dev nD) (t : Fin cfg2.N) :
    (GenP.dat2 (F := Ideal) V c).flushed 2 t
      = ((cfg2.win 2).blk t).view.read (Elt Ideal) (scaleRows (R := 10000) (K := 256) (V c main_v1) (V c main_v2)) := by
  show (cfg2.win 2).cut (grid2.coords t) ((GenP.dat2 V c).after 2 t) = _
  rw [GenP.after2_2]
  unfold GenP.out2_2
  rw [View.canon_unit_zero hz]
  simp only [View.ld_unit_zero (S := S10000x256) hz, View.ld_unit_zero (S := S10000x1) hz]
  rw [arr_block, col_block]
  obtain ⟨-, -, -, -, e4, e5⟩ := idx_facts t
  funext j
  show k2_pay1 (F := Ideal) (V c main_v1) (V c main_v2) j
    = scaleRows (R := 10000) (K := 256) (V c main_v1) (V c main_v2) (((cfg2.win 2).blk t).view.emb j)
  rw [payload]
  congr 1
  funext a
  apply Fin.ext
  match a with
  | ⟨0, _⟩ => show (j 0).val = win2_2.index t 0 * 10000 + 1 * (j 0).val; rw [e4]; omega
  | ⟨1, _⟩ => show (j 1).val = win2_2.index t 1 * 256 + 1 * (j 1).val; rw [e5]; omega

/-- An index of the scaled array lies in point `t`'s block iff each coordinate lies in the block's range. -/
theorem mem_blk (t : Fin cfg2.N) (i : S10000x256.Idx) :
    i ∈ ((cfg2.win 2).blk t).view.set ↔ ∀ a : Fin 2, win2_2.index t a * S10000x256.size a ≤ (i a).val
      ∧ (i a).val < win2_2.index t a * S10000x256.size a + S10000x256.size a := by
  show i ∈ ((View.whole main_v3).slice (win2_2.rect t)).set ↔ _
  rw [View.set_slice_whole, Rect.mem_set_unit]
  exact Iff.rfl

/-- The one point's block is the whole array. -/
theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  have t : Fin cfg2.N := ⟨0, by rw [show cfg2.N = 1 from N_2]; decide⟩
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 256 ≤ (i 1).val ∧ (i 1).val < win2_2.index t (1 : Fin 2) * 256 + 256; omega

/-- After the region the scaled array holds the product's rows, each multiplied by its scale. -/
theorem final (c : Dev nD) :
    (GenP.dat2 (F := Ideal) V c).arrAt 2 cfg2.N = scaleRows (R := 10000) (K := 256) (V c main_v1) (V c main_v2) :=
  (GenP.dat2 V c).arrAt_eq_of_cover 2 _ (fun t _ => flushed_eq V c t) cover

end Cert.KernelIdeal.ScaleRegion

end
-- ==== Proof.AggregateRegion.lean ====
/-
  The aggregation region: fifty row blocks of two hundred rows each.

  At row block `t` the body reads rows `200·t … 200·t + 199` of the adjacency array, replaces the entries on the
  array's diagonal by one, multiplies the block (rows by columns) with the whole array of scaled features, scales
  row `r` of the product by the `r`-th entry of the block of scales, adds the bias vector as a row, and keeps the
  positive part.  Every one of these steps is computed row by row, so the two hundred rows written at block `t` are
  rows `200·t … 200·t + 199` of the same expression of the whole arrays; the fifty blocks tile the output, which
  therefore ends holding that expression.
-/
import proofs.«141669_j86758339379593_1_alg».proof.Proof.KernelIdealFrame
import proofs.«141669_j86758339379593_1_alg».proof.Proof.LayerSpec
import proofs.«141669_j86758339379593_1_alg».proof.Proof.DiagonalMask

set_option maxRecDepth 16384

noncomputable section

namespace Cert.KernelIdeal.AggregateRegion

open Idealize.ShloMosaic Idealize.ShloMosaic.TcCoe Idealize.SL.Sem
open Idealize.ShloMosaic.Pipeline (Dat Cfg Window)
open Cert.KernelIdeal Cert.KernelIdeal.Gen
open Idealize.ShloMosaic.ValueIdx Idealize.ShloMosaic.PlainProduct Cert.GcnRows Cert.GcnLayer

/-! ## The body on whole blocks -/

/-- The adjacency block of row block `t` with its diagonal entries — those at `(p, j)` with `200·t + p = j` — set to one,
    as the body spells it: a comparison of the shifted row counter with the column counter selects the constant. -/
def maskedBlock (t : ℕ) (x : FVec Ideal S200x10000 .f32) : FVec Ideal S200x10000 .f32 :=
  select (cmpi .eq (addi (broadcast S200x10000 (Scalar.muli (BitVec.ofNat 32 t) 200#32))
        (iota .tc S200x10000 32 [0] iota_S200x10000_d0_w32)) (iota .tc S200x10000 32 [1] iota_S200x10000_d1_w32))
    (broadcast S200x10000 (Scalar.ofBits (F := Ideal) .f32 0x3F800000#32)) x

/-- The printed dimension numbers are the plain ones: contract the block's columns with the features' rows. -/
theorem dot_plain : dot_S200x10000_S10000x256_S200x256_1_0_0_1_n_n = DotDims.plain 200 10000 256 := rfl

/-- A vector cast to a row `[1, k]` reads, at `(0, q)`, the vector at `q`: both have row-major position `q`. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_one, Shape.rowMajor_val_two]
    show q.val = u.val * b + q.val
    rw [hu, Nat.zero_mul, Nat.zero_add])

/-- The product scaled row by row by the broadcast column, plus the bias vector cast to a row and broadcast along the
    rows: the biased rows, with the vector read as a row. -/
theorem addf_vector {R K : ℕ} (a : FVec Ideal ⟨2, ![R, K]⟩ .f32) (s : FVec Ideal ⟨2, ![R, 1]⟩ .f32) (b : FVec Ideal ⟨1, ![K]⟩ .f32)
    (h1 : (⟨2, ![R, 1]⟩ : Shape).ShapeCasts ⟨2, ![R, 1]⟩) (h2 : (⟨2, ![R, 1]⟩ : Shape).Broadcasts ⟨2, ![R, K]⟩)
    (h3 : (⟨1, ![K]⟩ : Shape).ShapeCasts ⟨1, ![K]⟩) (h4 : (⟨1, ![K]⟩ : Shape).ShapeCasts ⟨2, ![1, K]⟩)
    (h5 : (⟨2, ![1, K]⟩ : Shape).Broadcasts ⟨2, ![R, K]⟩) :
    addf (mulf a (broadcastTo ⟨2, ![R, K]⟩ (shapeCast ⟨2, ![R, 1]⟩ s h1) h2))
        (broadcastTo ⟨2, ![R, K]⟩ (shapeCast ⟨2, ![1, K]⟩ (shapeCast ⟨1, ![K]⟩ b h3) h4) h5) = biased a s (rowv b) := by
  funext j
  obtain ⟨p, q, rfl⟩ : ∃ (p : Fin R) (q : Fin K), j = ix2 p q := ⟨j 0, j 1, eq_ix2 j⟩
  rw [shapeCast_self, shapeCast_self, addf_apply, mulf_apply, Cert.LibLayout.broadcastTo_a1_ab_apply,
    broadcastTo_1b_ab_apply, shapeCast_b_1b_apply]
  rfl

/-- The body's value from its four loaded blocks: the positive part of the biased rows of the masked block's product
    with the features. -/
theorem pay_eq (i : grid3.Coords) (x0 : FVec Ideal S200x10000 .f32) (x1 : FVec Ideal S10000x256 .bf16)
    (x2 : FVec Ideal S200x1 .f32) (x3 : FVec Ideal S256 .f32) :
    k3_pay1 (F := Ideal) i x0 x1 x2 x3
      = positive (biased (rowsByCols (maskedBlock (i 0).val x0) x1) x2 (rowv x3)) := by
  unfold k3_pay1
  show maximumf (addf (mulf (matmul dot_S200x10000_S10000x256_S200x256_1_0_0_1_n_n none
            (truncf .bf16 (maskedBlock (i 0).val x0) bitsLt_bf16_f32) (shapeCast S10000x256 x1 shapeCasts_S10000x256_S10000x256)
            (constant S200x256 .f32 0x00000000#32))
          (broadcastTo S200x256 (shapeCast S200x1 x2 shapeCasts_S200x1_S200x1) broadcasts_S200x1_S200x256))
        (broadcastTo S200x256 (shapeCast S1x256 (shapeCast S256 x3 shapeCasts_S256_S256) shapeCasts_S256_S1x256)
          broadcasts_S1x256_S200x256))
      (broadcast S200x256 (Scalar.ofBits (F := Ideal) .f32 0x00000000#32)) = _
  rw [dot_plain, matmul_block, addf_vector, maximumf_zero]

/-! ## Which block of each array a grid point works on -/

theorem hz : (![0, 0] : Fin 2 → Nat) = fun _ => 0 := funext fun a => by fin_cases a <;> rfl

theorem hz1 : (![0] : Fin 1 → Nat) = fun _ => 0 := funext fun a => by fin_cases a; rfl

/-- The printed index maps, decided over the fifty grid points: the adjacency rows, the scales' rows and the output rows
    move with the point, block `t` at point `t`; the features and the bias stay whole; and the grid coordinate the body
    reads is the point's number. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0
    ∧ (grid3.coords t 0).val = t.val :=
  (by decide +kernel : ∀ t : Fin grid3.N, _)

variable (V : (c : Dev nD) → (b : Ref sig .tc) → Buf (Elt Ideal) ((c : Thread nD τ).loc b))

/-- The adjacency block at point `t` holds rows `200·t + p` of the adjacency array. -/
theorem blk0_apply (c : Dev nD) (t : Fin cfg3.N) (p : Fin 200) (k : Fin 10000) (hr : t.val * 200 + p.val < 10000) :
    (GenP.iblk3 (F := Ideal) V c 0 t : FVec Ideal S200x10000 .f32) (ix2 p k)
      = (V c main_arg1 : FVec Ideal S10000x10000 .f32) (ix2 ⟨t.val * 200 + p.val, hr⟩ k) := by
  obtain ⟨e0, e1, -⟩ := idx_facts t
  unfold GenP.iblk3
  rw [View.read_apply]
  show V c main_arg1 _ = V c main_arg1 _
  congr 1
  funext a; apply Fin.ext
  match a with
  | ⟨0, _⟩ => show win3_0.index t (0 : Fin 2) * 200 + 1 * p.val = t.val * 200 + p.val; rw [e0]; omega
  | ⟨1, _⟩ => show win3_0.index t (1 : Fin 2) * 10000 + 1 * k.val = k.val; rw [e1]; omega

/-- The features' block at every point is the whole array of scaled features. -/
theorem blk1_eq (c : Dev nD) (t : Fin cfg3.N) :
    (GenP.iblk3 (F := Ideal) V c 1 t : FVec Ideal S10000x256 .bf16) = (V c main_v3 : FVec Ideal S10000x256 .bf16) := by
  obtain ⟨-, -, e0, e1, -⟩ := idx_facts t
  funext y
  unfold GenP.iblk3
  rw [View.read_apply]
  show V c main_v3 _ = V c main_v3 _
  congr 1
  funext a; apply Fin.ext
  match a with
  | ⟨0, _⟩ => show win3_1.index t (0 : Fin 2) * 10000 + 1 * (y 0).val = (y 0).val; rw [e0]; omega
  | ⟨1, _⟩ => show win3_1.index t (1 : Fin 2) * 256 + 1 * (y 1).val = (y 1).val; rw [e1]; omega

/-- The scales' block at point `t` holds rows `200·t + p` of the column of scales. -/
theorem blk2_apply (c : Dev nD) (t : Fin cfg3.N) (p : Fin 200) (hr : t.val * 200 + p.val < 10000) :
    (GenP.iblk3 (F := Ideal) V c 2 t : FVec Ideal S200x1 .f32) (ix2 p 0)
      = (V c main_v2 : FVec Ideal S10000x1 .f32) (ix2 ⟨t.val * 200 + p.val, hr⟩ 0) := by
  obtain ⟨-, -, -, -, e0, e1, -⟩ := idx_facts t
  unfold GenP.iblk3
  rw [View.read_apply]
  show V c main_v2 _ = V c main_v2 _
  congr 1
  funext a; apply Fin.ext
  match a with
  | ⟨0, _⟩ => show win3_2.index t (0 : Fin 2) * 200 + 1 * p.val = t.val * 200 + p.val; rw [e0]; omega
  | ⟨1, _⟩ => show win3_2.index t (1 : Fin 2) * 1 + 1 * 0 = 0; rw [e1]

/-- The bias block at every point is the whole bias vector. -/
theorem blk3_eq (c : Dev nD) (t : Fin cfg3.N) :
    (GenP.iblk3 (F := Ideal) V c 3 t : FVec Ideal S256 .f32) = (V c main_v0 : FVec Ideal S256 .f32) := by
  obtain ⟨-, -, -, -, -, -, e0, -⟩ := idx_facts t
  funext y
  unfold GenP.iblk3
  rw [View.read_apply]
  show V c main_v0 _ = V c main_v0 _
  congr 1
  funext a; apply Fin.ext
  match a with
  | ⟨0, _⟩ => show win3_3.index t (0 : Fin 1) * 256 + 1 * (y 0).val = (y 0).val; rw [e0]; omega

/-! ## Rows of the block are rows of the whole -/

/-- The layer's aggregate from the whole arrays: adjacency `A`, scaled features `H`, scales `s`, bias `b`. -/
def aggregate (A : FVec Ideal S10000x10000 .f32) (H : FVec Ideal S10000x256 .bf16) (s : FVec Ideal S10000x1 .f32)
    (b : FVec Ideal S256 .f32) : FVec Ideal S10000x256 .f32 :=
  positive (biased (rowsByCols (M := 10000) (K := 10000) (N := 256) (selfLoops (n := 10000) A) H) s (rowv b))

/-- Row `200·t + r` of the array, for a row `r` of block `t`. -/
def rowOf (t : ℕ) (ht : t < 50) (r : Fin 200) : Fin 10000 := ⟨t * 200 + r.val, by have := r.isLt; omega⟩

/-- If the four blocks hold rows `200·t + r` of the adjacency and of the scales, the whole features and the whole bias,
    the body's value at `(r, k)` is the aggregate at `(200·t + r, k)`: the masked block is those rows of the adjacency
    with its unit diagonal (the diagonal test `200·t + r = k` is the array's `row = column`), and the product, the scaling
    with the bias, and the positive part each read the same row of their operands. -/
theorem rows_core (A : FVec Ideal S10000x10000 .f32) (H : FVec Ideal S10000x256 .bf16) (s : FVec Ideal S10000x1 .f32)
    (b : FVec Ideal S256 .f32) (t : ℕ) (ht : t < 50)
    (x0 : FVec Ideal S200x10000 .f32) (x2 : FVec Ideal S200x1 .f32)
    (h0 : ∀ (p : Fin 200) (k : Fin 10000), x0 (ix2 p k) = A (ix2 (rowOf t ht p) k))
    (h2 : ∀ p : Fin 200, x2 (ix2 p 0) = s (ix2 (rowOf t ht p) 0))
    (j : S200x256.Idx) :
    positive (biased (rowsByCols (maskedBlock t x0) H) x2 (rowv b)) j
      = aggregate A H s b (ix2 (rowOf t ht (j 0)) (j 1)) := by
  have hmask : ∀ (p : Fin 200) (k : Fin 10000),
      maskedBlock t x0 (ix2 p k) = selfLoops (n := 10000) A (ix2 (rowOf t ht p) k) := fun p k => by
    refine (Cert.DiagonalMask.masked_apply t ht _ _ x0 p k).trans ?_
    show (if t * 200 + p.val = k.val then one32 else x0 (ix2 p k))
      = (if t * 200 + p.val = k.val then one32 else A (ix2 (rowOf t ht p) k))
    rw [h0]
  have hprod : ∀ (r : Fin 200) (k : Fin 256),
      rowsByCols (maskedBlock t x0) H (ix2 r k)
        = rowsByCols (M := 10000) (K := 10000) (N := 256) (selfLoops (n := 10000) A) H (ix2 (rowOf t ht r) k) := fun r k =>
    rowsByCols_rows (selfLoops (n := 10000) A) H (maskedBlock t x0) (rowOf t ht) hmask (ix2 r k)
  have hbias : ∀ (r : Fin 200) (k : Fin 256),
      biased (rowsByCols (maskedBlock t x0) H) x2 (rowv b) (ix2 r k)
        = biased (rowsByCols (M := 10000) (K := 10000) (N := 256) (selfLoops (n := 10000) A) H) s (rowv b)
            (ix2 (rowOf t ht r) k) := fun r k =>
    biased_rows (rowOf t ht) _ s (rowv b) _ x2 hprod h2 r k
  exact (congrArg (positive (biased (rowsByCols (maskedBlock t x0) H) x2 (rowv b))) (eq_ix2 j)).trans
    (positive_rows (rowOf t ht) _ _ hbias (j 0) (j 1))

/-! ## From the blocks to the array -/

/-- What point `t` writes back is block `t` of the aggregate of the arrays as the region finds them. -/
theorem flushed_eq (c : Dev nD) (t : Fin cfg3.N) :
    (GenP.dat3 (F := Ideal) V c).flushed 4 t
      = ((cfg3.win 4).blk t).view.read (Elt Ideal)
          (aggregate (V c main_arg1) (V c main_v3) (V c main_v2) (V c main_v0)) := by
  have hN : t.val < 50 := lt_of_lt_of_eq t.isLt (N_3 : cfg3.N = 50)
  obtain ⟨-, -, -, -, -, -, -, e0, e1, eg⟩ := idx_facts t
  show (cfg3.win 4).cut (grid3.coords t) ((GenP.dat3 V c).after 4 t) = _
  rw [GenP.after3_4]
  unfold GenP.out3_4
  rw [View.canon_unit_zero hz]
  simp only [View.ld_unit_zero (S := S200x10000) hz, View.ld_unit_zero (S := S10000x256) hz,
    View.ld_unit_zero (S := S200x1) hz, View.ld_unit_zero (S := S256) hz1]
  rw [pay_eq, eg, blk1_eq, blk3_eq]
  funext j
  refine (rows_core (V c main_arg1) (V c main_v3) (V c main_v2) (V c main_v0) t.val hN
    (GenP.iblk3 V c 0 t) (GenP.iblk3 V c 2 t) (fun p k => blk0_apply V c t p k _) (fun p => blk2_apply V c t p _) j).trans ?_
  rw [View.read_apply]
  refine congrArg (aggregate (V c main_arg1) (V c main_v3) (V c main_v2) (V c main_v0)) ?_
  funext a; apply Fin.ext
  match a with
  | ⟨0, _⟩ => show t.val * 200 + (j 0).val = win3_4.index t (0 : Fin 2) * 200 + 1 * (j 0).val; rw [e0]; omega
  | ⟨1, _⟩ => show (j 1).val = win3_4.index t (1 : Fin 2) * 256 + 1 * (j 1).val; rw [e1]; omega

/-- An index of the output array is in point `t`'s block iff each coordinate is in the block's range on its axis. -/
theorem mem_blk (t : Fin cfg3.N) (i : S10000x256.Idx) :
    i ∈ ((cfg3.win 4).blk t).view.set
      ↔ ∀ a : Fin 2, win3_4.index t a * S200x256.size a ≤ (i a).val
          ∧ (i a).val < win3_4.index t a * S200x256.size a + S200x256.size a := by
  show i ∈ ((View.whole main_v4).slice (win3_4.rect t)).set ↔ _
  rw [View.set_slice_whole, Rect.mem_set_unit]
  exact Iff.rfl

/-- Every row `r` of the output is written by a point: the one numbered `r / 200`. -/
theorem cover (i : S10000x256.Idx) :
    ∃ t : Fin cfg3.N, (cfg3.win 4).flush t = true ∧ i ∈ ((cfg3.win 4).blk t).view.set := by
  have hi0 : (i 0).val < 10000 := (i 0).isLt
  have hi1 : (i 1).val < 256 := (i 1).isLt
  have hq : (i 0).val / 200 < cfg3.N := lt_of_lt_of_eq (by omega : (i 0).val / 200 < 50) (N_3 : cfg3.N = 50).symm
  obtain ⟨-, -, -, -, -, -, -, e0, e1, -⟩ := idx_facts ⟨(i 0).val / 200, hq⟩
  refine ⟨⟨(i 0).val / 200, hq⟩, flush3_4 _, ?_⟩
  rw [mem_blk]
  intro a
  match a with
  | ⟨0, _⟩ =>
    show win3_4.index ⟨(i 0).val / 200, hq⟩ (0 : Fin 2) * 200 ≤ (i 0).val
      ∧ (i 0).val < win3_4.index ⟨(i 0).val / 200, hq⟩ (0 : Fin 2) * 200 + 200
    rw [e0]
    show (i 0).val / 200 * 200 ≤ (i 0).val ∧ (i 0).val < (i 0).val / 200 * 200 + 200
    omega
  | ⟨1, _⟩ =>
    show win3_4.index ⟨(i 0).val / 200, hq⟩ (1 : Fin 2) * 256 ≤ (i 1).val
      ∧ (i 1).val < win3_4.index ⟨(i 0).val / 200, hq⟩ (1 : Fin 2) * 256 + 256
    rw [e1]
    omega

/-- The output array after the region: the positive part of the biased rows of the unit-diagonal adjacency's product
    with the scaled features, of the arrays as the region finds them. -/
theorem final (c : Dev nD) :
    (GenP.dat3 (F := Ideal) V c).arrAt 4 cfg3.N
      = positive (biased (rowsByCols (φ₁ := .f32) (φ₂ := .bf16) (M := 10000) (K := 10000) (N := 256) (selfLoops (n := 10000) (V c main_arg1)) (V c main_v3))
          (V c main_v2) (rowv (V c main_v0))) :=
  (GenP.dat3 (F := Ideal) V c).arrAt_eq_of_cover 4 (aggregate (V c main_arg1) (V c main_v3) (V c main_v2) (V c main_v0))
    (fun t _ => flushed_eq V c t) cover

end Cert.KernelIdeal.AggregateRegion

end
-- ==== Proof.KernelValue.lean ====
/-
  The idealized kernel program's result as the layer's output of its argument arrays.

  Each region's output array is one whole-array function of the arrays the region reads (the four region modules). Chaining
  them through the buffers the regions pass on: the linear region leaves `x · w`; the degree region leaves the column `s` of
  normalising scales of the adjacency array as launched; the scale region leaves `x · w` with row `r` multiplied by `s r`; and the
  aggregate region, reading the adjacency array as launched, those scaled rows, the scales and the host's bias sum, leaves
  `max ((selfLoops a · scaled) (r, k) · s r + (b₁ + b₂) k, 0)`: the layer's output.
-/
import proofs.«141669_j86758339379593_1_alg».proof.Proof.KernelRun
import proofs.«141669_j86758339379593_1_alg».proof.Proof.LayerSpec
import proofs.«141669_j86758339379593_1_alg».proof.Proof.LinearRegion
import proofs.«141669_j86758339379593_1_alg».proof.Proof.DegreeRegion
import proofs.«141669_j86758339379593_1_alg».proof.Proof.ScaleRegion
import proofs.«141669_j86758339379593_1_alg».proof.Proof.AggregateRegion

set_option maxRecDepth 16384

noncomputable section

namespace Cert.KernelIdeal.LayerValue

open Idealize.ShloMosaic Idealize.ShloMosaic.TcCoe Idealize.SL.Sem
open Idealize.ShloMosaic.Pipeline (Dat Cfg Window)
open Cert.KernelIdeal Cert.KernelIdeal.Gen Cert.KernelIdeal.GenP Cert.KernelIdeal.RunValue
open Idealize.ShloMosaic.ValueIdx Idealize.ShloMosaic.PlainProduct Cert.GcnRows Cert.GcnLayer

variable (m : (ℓ : Loc nD τ sig) → Buf (Elt Ideal) ℓ) (ρ : Dev nD → PrngReg)

/-! ## The arguments as each region finds them -/

theorem V1_of_ne (c : Dev nD) (b : Ref sig .tc) (hb : b ≠ main_v0) : V1 m ρ c b = m ((c : Thread nD τ).loc b) :=
  W1_of_ne m ρ c b hb

/-- Region 1 reads the adjacency array as launched: region 0 does not touch it. -/
theorem V2_main_arg1 (c : Dev nD) : V2 m ρ c main_arg1 = m ((c : Thread nD τ).loc main_arg1) :=
  (W2_of_ne m ρ c main_arg1 (by decide)).trans (W1_of_ne m ρ c main_arg1 (by decide))

/-- The product of the features with the weights, as region 2 finds it. -/
theorem V3_main_v1 (c : Dev nD) :
    V3 m ρ c main_v1 = rowsByCols (φ₁ := .f32) (φ₂ := .f32) (M := 10000) (K := 512) (N := 256) (m ((c : Thread nD τ).loc main_arg0)) (m ((c : Thread nD τ).loc main_arg2)) :=
  calc V3 m ρ c main_v1
    _ = W2 m ρ c (Proc.devRef .tc main_v1) := W3_of_ne m ρ c main_v1 (by decide)
    _ = (dat0 (V1 m ρ) c).arrAt 2 cfg0.N := W2_arr m ρ c 2
    _ = rowsByCols (φ₁ := .f32) (φ₂ := .f32) (M := 10000) (K := 512) (N := 256) (V1 m ρ c main_arg0) (V1 m ρ c main_arg2) := LinearRegion.final (V1 m ρ) c
    _ = _ := by rw [V1_of_ne m ρ c main_arg0 (by decide), V1_of_ne m ρ c main_arg2 (by decide)]

/-- The column of normalising scales, as region 2 finds it. -/
theorem V3_main_v2 (c : Dev nD) : V3 m ρ c main_v2 = invSqrtDeg (n := 10000) (m ((c : Thread nD τ).loc main_arg1)) :=
  calc V3 m ρ c main_v2
    _ = (dat1 (V2 m ρ) c).arrAt 1 cfg1.N := W3_arr m ρ c 1
    _ = invSqrtDeg (n := 10000) (V2 m ρ c main_arg1) := DegreeRegion.final (V2 m ρ) c
    _ = _ := by rw [V2_main_arg1 m ρ c]

/-- Region 3 reads the adjacency array as launched. -/
theorem V4_main_arg1 (c : Dev nD) : V4 m ρ c main_arg1 = m ((c : Thread nD τ).loc main_arg1) :=
  calc V4 m ρ c main_arg1
    _ = W3 m ρ c (Proc.devRef .tc main_arg1) := W4_of_ne m ρ c main_arg1 (by decide)
    _ = V2 m ρ c main_arg1 := (W3_arr m ρ c 0).trans (((dat1 (V2 m ρ) c).arrAt_in 0 rfl _).trans (A_eq1 (V2 m ρ) c 0))
    _ = _ := V2_main_arg1 m ρ c

/-- Region 3 reads the scales as region 1 left them: region 2 only reads them. -/
theorem V4_main_v2 (c : Dev nD) : V4 m ρ c main_v2 = invSqrtDeg (n := 10000) (m ((c : Thread nD τ).loc main_arg1)) :=
  calc V4 m ρ c main_v2
    _ = V3 m ρ c main_v2 := (W4_arr m ρ c 1).trans (((dat2 (V3 m ρ) c).arrAt_in 1 rfl _).trans (A_eq2 (V3 m ρ) c 1))
    _ = _ := V3_main_v2 m ρ c

/-- The scaled features, as region 3 finds them. -/
theorem V4_main_v3 (c : Dev nD) :
    V4 m ρ c main_v3 = scaleRows (R := 10000) (K := 256)
      (rowsByCols (φ₁ := .f32) (φ₂ := .f32) (M := 10000) (K := 512) (N := 256) (m ((c : Thread nD τ).loc main_arg0)) (m ((c : Thread nD τ).loc main_arg2)))
      (invSqrtDeg (n := 10000) (m ((c : Thread nD τ).loc main_arg1))) :=
  calc V4 m ρ c main_v3
    _ = (dat2 (V3 m ρ) c).arrAt 2 cfg2.N := W4_arr m ρ c 2
    _ = scaleRows (R := 10000) (K := 256) (V3 m ρ c main_v1) (V3 m ρ c main_v2) := ScaleRegion.final (V3 m ρ) c
    _ = _ := by rw [V3_main_v1 m ρ c, V3_main_v2 m ρ c]

/-- The bias sum, as region 3 finds it: no region before it touches it. -/
theorem V4_main_v0 (c : Dev nD) :
    (V4 m ρ c main_v0 : S256.Idx → Elt Ideal .f32) = addf (F := Ideal) (s := S256) (φ := .f32) (m ((c : Thread nD τ).loc main_arg3)) (m ((c : Thread nD τ).loc main_arg4)) :=
  calc V4 m ρ c main_v0
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = _ := W1_main_v0 m ρ c

/-! ## The result -/

/-- The result buffer after the run is the layer's output of the launch memory's argument arrays. -/
theorem result_layer (c : Dev nD) :
    (W5 m ρ c (Proc.devRef .tc main_v4) : S10000x256.Idx → Ideal .f32)
      = layer (n := 10000) (k := 512) (o := 256) (m ((c : Thread nD τ).loc main_arg0)) (m ((c : Thread nD τ).loc main_arg1))
          (m ((c : Thread nD τ).loc main_arg2)) (m ((c : Thread nD τ).loc main_arg3)) (m ((c : Thread nD τ).loc main_arg4)) :=
  calc W5 m ρ c (Proc.devRef .tc main_v4)
    _ = (dat3 (V4 m ρ) c).arrAt 4 cfg3.N := W5_arr m ρ c 4
    _ = positive (biased (rowsByCols (φ₁ := .f32) (φ₂ := .bf16) (M := 10000) (K := 10000) (N := 256) (selfLoops (n := 10000) (V4 m ρ c main_arg1)) (V4 m ρ c main_v3))
          (V4 m ρ c main_v2) (rowv (V4 m ρ c main_v0))) := AggregateRegion.final (V4 m ρ) c
    _ = _ := by rw [V4_main_arg1 m ρ c, V4_main_v3 m ρ c, V4_main_v2 m ρ c, V4_main_v0 m ρ c]; rfl

end Cert.KernelIdeal.LayerValue

end
-- ==== Proof.LibScatter.lean ====
/-
  `stablehlo.scatter` whose body returns the update (`x.at[…].set(v)`), read at ONE operand index.

  The scatter is a left fold over the update positions in row-major order; each step overwrites the operand
  element its update lands on and leaves every other element alone. So at an operand index `i'`:
  * if no update lands on `i'`, the result there is the operand's element (`Host.scatter_apply_of_miss`,
    for any body);
  * if exactly one update index `j` lands on `i'` and the body returns the update, the result there is
    `upd j` (`Host.scatter_apply_of_hit`).
  Both are proved for the fold over an arbitrary list of positions first, by induction on the list.
-/
import Idealize.ShloMosaic.PureOps.ShapeOps

namespace Idealize.ShloMosaic

variable {s si u : Shape} {α : Type} {w : Nat}

/-- The fold over any list of update positions leaves operand index `i'` alone when no listed update lands on it. -/
theorem Host.scatter_fold_miss (d : ScatterDims s si u) (f : α → α → α) (idx : IVec si w) (upd : u.Idx → α) (i' : s.Idx) :
    ∀ (l : List (Fin u.numel)) (x : s.Idx → α),
      (∀ n ∈ l, d.resultIdx? (u.rowMajor.symm n) idx ≠ some i') →
      (l.foldl (fun r n =>
        match d.resultIdx? (u.rowMajor.symm n) idx with
        | some i => fun i' => if i' = i then f (r i) (upd (u.rowMajor.symm n)) else r i'
        | none => r) x) i' = x i' := by
  intro l
  induction l with
  | nil => intro x _; rfl
  | cons a l ih =>
    intro x h
    rw [List.foldl_cons, ih _ (fun n hn => h n (List.mem_cons_of_mem _ hn))]
    have ha := h a (List.mem_cons_self ..)
    generalize d.resultIdx? (u.rowMajor.symm a) idx = o at ha
    cases o with
    | none => rfl
    | some i => exact if_neg (fun e => ha (by rw [e]))

/-- The fold over a list of update positions that holds `n₀`, the only listed position landing on `i'`, ends at
    `n₀`'s update there, when the body returns the update. -/
theorem Host.scatter_fold_hit (d : ScatterDims s si u) (f : α → α → α) (hf : ∀ a b, f a b = b) (idx : IVec si w)
    (upd : u.Idx → α) (i' : s.Idx) (n₀ : Fin u.numel) (hn₀ : d.resultIdx? (u.rowMajor.symm n₀) idx = some i') :
    ∀ (l : List (Fin u.numel)) (x : s.Idx → α), n₀ ∈ l →
      (∀ n ∈ l, d.resultIdx? (u.rowMajor.symm n) idx = some i' → n = n₀) →
      (l.foldl (fun r n =>
        match d.resultIdx? (u.rowMajor.symm n) idx with
        | some i => fun i' => if i' = i then f (r i) (upd (u.rowMajor.symm n)) else r i'
        | none => r) x) i' = upd (u.rowMajor.symm n₀) := by
  intro l
  induction l with
  | nil => intro x hm; exact absurd hm (List.not_mem_nil)
  | cons a l ih =>
    intro x hm huniq
    rw [List.foldl_cons]
    by_cases hl : n₀ ∈ l
    · exact ih _ hl (fun n hn => huniq n (List.mem_cons_of_mem _ hn))
    · have ha : a = n₀ := ((List.mem_cons.1 hm).resolve_right hl).symm
      subst ha
      rw [Host.scatter_fold_miss d f idx upd i' l _
        (fun n hn hres => hl ((huniq n (List.mem_cons_of_mem _ hn) hres) ▸ hn))]
      rw [hn₀]
      show (if i' = i' then f (x i') (upd (u.rowMajor.symm a)) else x i') = _
      rw [if_pos rfl, hf]

/-- A scatter read at an operand index no update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  unfold Host.scatter
  exact Host.scatter_fold_miss d f idx upd i' _ x (fun n _ => h _)

/-- A scatter whose body returns the update, read at an operand index exactly one update index `j` lands on:
    that update. -/
theorem Host.scatter_apply_of_hit (d : ScatterDims s si u) (f : α → α → α) (hf : ∀ a b, f a b = b) (x : s.Idx → α)
    (idx : IVec si w) (upd : u.Idx → α) (i' : s.Idx) (j : u.Idx) (hj : d.resultIdx? j idx = some i')
    (huniq : ∀ j', d.resultIdx? j' idx = some i' → j' = j) :
    Host.scatter d f x idx upd i' = upd j := by
  unfold Host.scatter
  have h := Host.scatter_fold_hit d f hf idx upd i' (u.rowMajor j)
    (by rw [Equiv.symm_apply_apply]; exact hj) (List.finRange _) x (List.mem_finRange _)
    (fun n _ hn => by rw [← huniq _ hn, Equiv.apply_symm_apply])
  rw [Equiv.symm_apply_apply] at h
  exact h

end Idealize.ShloMosaic
-- ==== Proof.LibColumns.lean ====
/-
  The columns of a two-column array, read at coordinates: the second column cut out of `[a, 2]`, a column
  `[a, 1]` flattened to a vector `[a]` (and the two together: the second column as a vector), a vector laid
  out as a column by a broadcast along the rows, and two columns joined side by side into `[a, 2]`. Each lemma names the operand's index by coordinates, so that it
  applies by unification at any literal length `a`.
-/
import Idealize.ShloMosaic.Lib.Pipeline.Value
import Idealize.ShloMosaic.Lib.ValueIdx

namespace Cert.LibColumns

open Idealize.ShloMosaic Idealize.ShloMosaic.ValueIdx

variable {α : Type}

/-- The second column of an `[a, 2]` array cut out as an `[a, 1]` column (offsets `(0, 1)`, unit strides):
    at `(i, u)` it is the array at `(i, 1)`, the unit coordinate `u` being zero. -/
theorem slice_col1_apply {a : ℕ} (x : (⟨2, ![a, 2]⟩ : Shape).Idx → α)
    (h : (⟨2, ![a, 2]⟩ : Shape).Slices ![0, 1] ⟨2, ![a, 1]⟩) (i : Fin a) (u : Fin 1) :
    extractStridedSlice ⟨2, ![a, 1]⟩ ![0, 1] x h (ix2 i u) = x (ix2 i (1 : Fin 2)) :=
  extractStridedSlice_apply ![0, 1] x h (ix2 i u) (ix2 i (1 : Fin 2)) fun ax => by
    match ax with
    | ⟨0, _⟩ => show i.val = 0 + i.val; omega
    | ⟨1, _⟩ => show 1 = 1 + u.val; omega

/-- A column `[a, 1]` flattened to a vector `[a]` reads, at `i`, the column's entry of row `i`: the row-major
    position of `(i, 0)` is `i · 1 + 0 = i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The second column of an `[a, 2]` array as a vector `[a]`: cut out as a column, then flattened. -/
def secondColumn {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) :
    (⟨1, ![a]⟩ : Shape).Idx → α :=
  shapeCast ⟨1, ![a]⟩ (extractStridedSlice ⟨2, ![a, 1]⟩ ![0, 1] y hs) hc

/-- It reads, at `i`, the array at `(i, 1)`. -/
theorem secondColumn_apply {a : ℕ} (hs : (⟨2, ![a, 2]⟩ : Shape).Slices ![0, 1] ⟨2, ![a, 1]⟩)
    (hc : (⟨2, ![a, 1]⟩ : Shape).ShapeCasts ⟨1, ![a]⟩) (y : (⟨2, ![a, 2]⟩ : Shape).Idx → α) (i : Fin a) :
    secondColumn hs hc y (ix1 i) = y (ix2 i (1 : Fin 2)) :=
  (shapeCast_a1_a_apply _ hc i).trans (slice_col1_apply y hs i 0)

/-- A vector `[a]` laid out as a column `[a, 1]` by a broadcast that sends its one axis to the rows reads,
    at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun ax => by
    match ax with
    | ⟨0, _⟩ =>
      show i.val = if a = 1 then 0 else i.val
      split
      · have := i.isLt; omega
      · rfl

/-- Two columns `[a, 1]` joined along the second axis into `[a, 2]`: at `(i, j)` the first column's entry of
    row `i` when `j = 0`, the second column's when `j = 1`. -/
theorem concat_cols_apply {a : ℕ} (x y : (⟨2, ![a, 1]⟩ : Shape).Idx → α)
    (h : Shape.Concatenates [(⟨2, ![a, 1]⟩ : Shape), ⟨2, ![a, 1]⟩] ⟨2, ![a, 2]⟩ 1) (i : Fin a) (j : Fin 2) :
    concatenate ⟨2, ![a, 2]⟩ 1 [⟨⟨2, ![a, 1]⟩, x⟩, ⟨⟨2, ![a, 1]⟩, y⟩] h (ix2 i j)
      = if j = 0 then x (ix2 i (0 : Fin 1)) else y (ix2 i (0 : Fin 1)) := by
  match j with
  | ⟨0, _⟩ =>
    refine Eq.trans ?_ (if_pos rfl).symm
    exact concatenate_pair_apply_left 1 x y h _ rfl _ fun b => by
      match b with
      | ⟨0, _⟩ => rfl
      | ⟨1, _⟩ => rfl
  | ⟨1, _⟩ =>
    refine Eq.trans ?_ (if_neg (Fin.ne_of_val_ne Nat.one_ne_zero)).symm
    exact concatenate_pair_apply_right 1 x y h _ rfl rfl _ (fun b hb => by
      match b with
      | ⟨0, _⟩ => rfl
      | ⟨1, _⟩ => exact absurd rfl hb) rfl

end Cert.LibColumns
-- ==== Proof.ReferenceLayer.lean ====
/-
  The reference program's result, read index by index, is the layer in its reference arrangement.

  The reference first turns the adjacency array into one with a unit diagonal: it builds the index array whose row `k`
  is `(k, k)` (two copies of the counting vector, each passed through a "negative index wraps around" correction that
  never fires, joined side by side) and writes the constant one at every listed position. Update `k` therefore lands on
  the diagonal element `(k, k)` and nowhere else, so an element `(r, q)` of the result is one when `r = q` (exactly one
  update lands there) and the argument's element otherwise (no update lands there). The row sums of that array are the
  degrees; the scale of a row is the inverse square root of its degree where the degree is positive and zero elsewhere;
  the rest is pointwise arithmetic and two products of rows by columns, compared term by term with the specification.
-/
import proofs.«141669_j86758339379593_1_alg».proof.Proof.Gen.ReferenceIdeal.Read
import proofs.«141669_j86758339379593_1_alg».proof.Proof.LayerSpec
import proofs.«141669_j86758339379593_1_alg».proof.Proof.LibScatter
import proofs.«141669_j86758339379593_1_alg».proof.Proof.LibColumns

noncomputable section

open scoped BigOperators

namespace Cert.ReferenceIdeal.RefLayer

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Idealize.ShloMosaic.PlainProduct Cert.GcnRows Cert.GcnLayer

/-! ## The index array -/

/-- A word below 10000 is not negative when read as a signed number. -/
theorem slt_zero_of_small (k : ℕ) (hk : k < 10000) : IntOp.cmpi .slt (BitVec.ofNat 32 k) 0#32 = 0#1 := by
  have h : (BitVec.ofNat 32 k).slt 0#32 = false := by
    rw [BitVec.slt_zero_eq_msb, BitVec.msb_eq_decide, BitVec.toNat_ofNat]
    simp only [decide_eq_false_iff_not, not_le]
    omega
  show BitVec.ofBool ((BitVec.ofNat 32 k).slt 0#32) = 0#1
  rw [h]; rfl

/-- The first index column: row `k` holds the word `k`. -/
theorem v5_at (k : Fin 10000) : val_main_v5 (F := Ideal) (ix1 k) = BitVec.ofNat 32 k.val := by
  rw [val_main_v5_apply, val_main_v2_apply, val_main_v1_apply, val_main_c_apply, val_main_v0_apply]
  show Scalar.select (IntOp.cmpi .slt (BitVec.ofNat 32 k.val) 0#32) _ _ = _
  rw [slt_zero_of_small k.val k.isLt]
  unfold Scalar.select
  rw [if_neg (by decide)]

/-- The second index column: row `k` holds the word `k`. -/
theorem v10_at (k : Fin 10000) : val_main_v10 (F := Ideal) (ix1 k) = BitVec.ofNat 32 k.val := by
  rw [val_main_v10_apply, val_main_v7_apply, val_main_v6_apply, val_main_c_1_apply, val_main_v0_apply]
  show Scalar.select (IntOp.cmpi .slt (BitVec.ofNat 32 k.val) 0#32) _ _ = _
  rw [slt_zero_of_small k.val k.isLt]
  unfold Scalar.select
  rw [if_neg (by decide)]

/-- The index array: both entries of row `k` are the word `k`. -/
theorem v13_at (k : Fin 10000) (c : Fin 2) : val_main_v13 (F := Ideal) (ix2 k c) = BitVec.ofNat 32 k.val := by
  have e : val_main_v13 (F := Ideal) (ix2 k c)
      = if c = 0 then val_main_v11 (F := Ideal) (ix2 k (0 : Fin 1)) else val_main_v12 (F := Ideal) (ix2 k (0 : Fin 1)) := by
    unfold val_main_v13
    exact Cert.LibColumns.concat_cols_apply _ _ _ k c
  have i11 : idx_main_v11 (ix2 k (0 : Fin 1)) = ix1 k := funext fun a => Fin.ext (by match a with | ⟨0, _⟩ => rfl)
  have i12 : idx_main_v12 (ix2 k (0 : Fin 1)) = ix1 k := funext fun a => Fin.ext (by match a with | ⟨0, _⟩ => rfl)
  rw [e, val_main_v11_apply, val_main_v12_apply, i11, i12, v5_at, v10_at, ite_self]

/-! ## Where the updates land -/

/-- The scatter's dimension numbers, by a short name. -/
abbrev SD : ScatterDims S10000x10000 S10000x2 S10000 := scatter_S10000x10000_S10000x2_S10000_n_01_01_1

/-- Both operand axes are named by the map from start-index components to operand axes. -/
theorem mem_sdto : ∀ a : Fin 2, a ∈ SD.scatterDimsToOperandDims := by decide
/-- Operand axis `a` takes component `a` of the start index. -/
theorem idxOf_sdto : ∀ a : Fin 2, SD.scatterDimsToOperandDims.idxOf a = a.val := by decide
/-- Neither operand axis is a window axis. -/
theorem not_mem_sKept : ∀ a : Fin 2, a ∉ SD.sKept := by decide

/-- No operand axis takes a window coordinate: both are inserted. -/
theorem window_zero (j : S10000.Idx) (a : Fin 2) : SD.window j a = 0 := by
  unfold ScatterDims.window
  rw [dif_neg (not_mem_sKept a)]

/-- On the row axis of the index array, update `k` reads row `k`. -/
theorem siIdx_0 (k : Fin 10000) (c : Fin SD.scatterDimsToOperandDims.length) :
    (SD.siIdx (ix1 k) c (0 : Fin 2)).val = k.val := by
  have hx : ∀ x : Fin 1, (ix1 k x).val = k.val := fun x => by match x with | ⟨0, _⟩ => rfl
  unfold ScatterDims.siIdx
  rw [dif_neg (show ¬ ((0 : Fin 2)).val = SD.indexVectorDim by decide)]
  unfold ScatterDims.siCoord
  exact hx _

/-- On the column axis of the index array, component `c` of the start index is read in column `c`. -/
theorem siIdx_1 (k : Fin 10000) (c : Fin SD.scatterDimsToOperandDims.length) :
    (SD.siIdx (ix1 k) c (1 : Fin 2)).val = c.val := by
  unfold ScatterDims.siIdx
  rw [dif_pos (show ((1 : Fin 2)).val = SD.indexVectorDim by decide)]

/-- Where update `k` reads component `c` of its start index: row `k`, column `c` of the index array. -/
theorem siIdx_eq (k : Fin 10000) (c : Fin SD.scatterDimsToOperandDims.length) (c' : Fin 2) (hc : c.val = c'.val) :
    SD.siIdx (ix1 k) c = ix2 k c' := by
  funext b
  apply Fin.ext
  match b with
  | ⟨0, _⟩ => exact siIdx_0 k c
  | ⟨1, _⟩ => exact (siIdx_1 k c).trans hc

/-- The start of update `k`'s window on operand axis `a`: entry `(k, a)` of the index array, read signed. -/
theorem start_eq (k : Fin 10000) (idx : IVec S10000x2 32) (a : Fin 2) :
    SD.start (ix1 k) idx a = (idx (ix2 k a)).toInt := by
  unfold ScatterDims.start
  rw [dif_pos (mem_sdto a)]
  exact congrArg (fun i => (idx i).toInt) (siIdx_eq k _ a (idxOf_sdto a))

/-- The signed reading of a word below 10000 is the number itself. -/
theorem toInt_small (k : ℕ) (hk : k < 10000) : (BitVec.ofNat 32 k).toInt = (k : Int) := by
  rw [BitVec.toInt_eq_toNat_cond, BitVec.toNat_ofNat]
  have h : k % 2 ^ 32 = k := Nat.mod_eq_of_lt (by omega)
  rw [h, if_pos (by omega)]

/-- Both operand axes have ten thousand positions. -/
theorem size_operand : ∀ a : Fin 2, S10000x10000.size a = 10000 := by decide

/-- Update `k` lands on the diagonal element `(k, k)`. -/
theorem lands (k : Fin 10000) : SD.resultIdx? (ix1 k) (val_main_v13 (F := Ideal)) = some (ix2 k k) := by
  have hs : ∀ a : Fin 2, SD.start (ix1 k) (val_main_v13 (F := Ideal)) a + SD.window (ix1 k) a = (k.val : Int) := fun a => by
    rw [start_eq, window_zero, v13_at, toInt_small k.val k.isLt]
    simp only [Nat.cast_zero, add_zero]
  have hk : ∀ a : Fin 2, (ix2 k k a).val = k.val := fun a => by match a with | ⟨0, _⟩ => rfl | ⟨1, _⟩ => rfl
  unfold ScatterDims.resultIdx?
  split
  · refine congrArg some (funext fun a => Fin.ext ?_)
    show (SD.start (ix1 k) (val_main_v13 (F := Ideal)) a + SD.window (ix1 k) a).toNat = (ix2 k k a).val
    rw [hs a, hk a, Int.toNat_natCast]
  · rename_i h
    refine absurd (fun a => ?_) h
    rw [hs a, size_operand a]
    have := k.isLt
    constructor <;> omega

/-! ## The adjacency with a unit diagonal, its degrees and scales -/

/-- The adjacency after the scatter: ones on the diagonal, the argument elsewhere. -/
theorem v15_at (x1 : FVec Ideal S10000x10000 .f32) (r q : Fin 10000) :
    val_main_v15 (F := Ideal) x1 (ix2 r q) = selfLoops (n := 10000) x1 (ix2 r q) := by
  unfold val_main_v15 selfLoops
  show Host.scatter SD (fun _ b => b) x1 (val_main_v13 (F := Ideal)) (val_main_v14 (F := Ideal)) (ix2 r q)
    = if r.val = q.val then one32 else x1 (ix2 r q)
  by_cases h : r = q
  · subst h
    rw [if_pos rfl]
    refine (Host.scatter_apply_of_hit SD (fun _ b => b) (fun _ _ => rfl) x1 _ _ (ix2 r r) (ix1 r) (lands r) ?_).trans ?_
    · intro j' hj'
      obtain ⟨k, rfl⟩ : ∃ k : Fin 10000, j' = ix1 k := ⟨j' 0, eq_ix1 j'⟩
      rw [lands k] at hj'
      have e0 : k = r := congrFun (Option.some.inj hj') (0 : Fin 2)
      rw [e0]
    · rw [val_main_v14_apply, val_main_cst_apply]
  · rw [if_neg (fun e => h (Fin.ext e))]
    refine Host.scatter_apply_of_miss SD _ x1 _ _ (ix2 r q) (fun j' hj' => ?_)
    obtain ⟨k, rfl⟩ : ∃ k : Fin 10000, j' = ix1 k := ⟨j' 0, eq_ix1 j'⟩
    rw [lands k] at hj'
    have e := Option.some.inj hj'
    have e0 : k = r := congrFun e (0 : Fin 2)
    have e1 : k = q := congrFun e (1 : Fin 2)
    exact h (e0.symm.trans e1)

/-- The row sums of the scattered adjacency are the degrees. -/
theorem v16_at (x1 : FVec Ideal S10000x10000 .f32) (r : Fin 10000) :
    val_main_v16 (F := Ideal) x1 (ix1 r) = degree (n := 10000) x1 r := by
  rw [val_main_v16_apply, val_main_cst_3_apply]
  have hz : (FloatOps.ofBits .f32 0x00000000#32 : Ideal .f32) = 0 := Ideal.ofBits_zero_f32
  rw [hz, zero_add]
  unfold degree
  refine Finset.sum_congr rfl fun k _ => ?_
  have e : idx_main_v16 (ix1 r) k = ix2 r k :=
    funext fun a => Fin.ext (by match a with | ⟨0, _⟩ => rfl | ⟨1, _⟩ => rfl)
  rw [e, v15_at]

/-- The scale of row `r`: the inverse square root of its degree where that is positive, zero elsewhere. -/
theorem v20_at (x1 : FVec Ideal S10000x10000 .f32) (r : Fin 10000) :
    val_main_v20 (F := Ideal) x1 (ix1 r) = invSqrtPos (degree (n := 10000) x1 r) := by
  rw [val_main_v20_apply, val_main_v18_apply, val_main_v19_apply, val_main_v17_apply, val_main_cst_4_apply,
    val_main_call0_v1_apply, val_main_call0_v0_apply, val_main_cst_5_apply, v16_at]
  rfl

/-! ## The layer -/

/-- The column of scales laid out along the rows, first copy. -/
theorem v22_at (x1 : FVec Ideal S10000x10000 .f32) (r : Fin 10000) :
    val_main_v22 (F := Ideal) x1 (ix2 r (0 : Fin 1)) = invSqrtDeg (n := 10000) x1 (ix2 r (0 : Fin 1)) := by
  have e : idx_main_v22 (ix2 r (0 : Fin 1)) = ix1 r := funext fun a => Fin.ext (by match a with | ⟨0, _⟩ => rfl)
  rw [val_main_v22_apply, e, v20_at]
  rfl

/-- The column of scales laid out along the rows, second copy. -/
theorem v23_at (x1 : FVec Ideal S10000x10000 .f32) (r : Fin 10000) :
    val_main_v23 (F := Ideal) x1 (ix2 r (0 : Fin 1)) = invSqrtDeg (n := 10000) x1 (ix2 r (0 : Fin 1)) := by
  have e : idx_main_v23 (ix2 r (0 : Fin 1)) = ix1 r := funext fun a => Fin.ext (by match a with | ⟨0, _⟩ => rfl)
  rw [val_main_v23_apply, e, v20_at]
  rfl

/-- The features times the weights, rows by columns. -/
theorem v21_at (x0 : FVec Ideal S10000x512 .f32) (x2 : FVec Ideal S512x256 .f32) (q : Fin 10000) (c : Fin 256) :
    val_main_v21 (F := Ideal) x0 x2 (ix2 q c) = rowsByCols (M := 10000) (K := 512) (N := 256) x0 x2 (ix2 q c) := by
  rw [val_main_v21_apply, rowsByCols_apply]
  refine Finset.sum_congr rfl fun k _ => ?_
  have el : lidx_main_v21 (ix2 q c) k = ix2 q k :=
    funext fun a => Fin.ext (by match a with | ⟨0, _⟩ => rfl | ⟨1, _⟩ => rfl)
  have er : ridx_main_v21 (ix2 q c) k = ix2 k c :=
    funext fun a => Fin.ext (by match a with | ⟨0, _⟩ => rfl | ⟨1, _⟩ => rfl)
  rw [el, er]

/-- The product scaled row by row. -/
theorem v25_at (x0 : FVec Ideal S10000x512 .f32) (x1 : FVec Ideal S10000x10000 .f32) (x2 : FVec Ideal S512x256 .f32)
    (q : Fin 10000) (c : Fin 256) :
    val_main_v25 (F := Ideal) x0 x1 x2 (ix2 q c)
      = invSqrtDeg (n := 10000) x1 (ix2 q (0 : Fin 1)) * rowsByCols (M := 10000) (K := 512) (N := 256) x0 x2 (ix2 q c) := by
  have e : idx_main_v24 (ix2 q c) = ix2 q (0 : Fin 1) :=
    funext fun a => Fin.ext (by match a with | ⟨0, _⟩ => rfl | ⟨1, _⟩ => rfl)
  rw [val_main_v25_apply, val_main_v24_apply, e, v23_at, v21_at, Ideal.mulf_def]

/-- The scattered adjacency times the scaled product. -/
theorem v26_at (x0 : FVec Ideal S10000x512 .f32) (x1 : FVec Ideal S10000x10000 .f32) (x2 : FVec Ideal S512x256 .f32)
    (r : Fin 10000) (c : Fin 256) :
    val_main_v26 (F := Ideal) x0 x1 x2 (ix2 r c)
      = ∑ q : Fin 10000, selfLoops (n := 10000) x1 (ix2 r q)
          * (invSqrtDeg (n := 10000) x1 (ix2 q (0 : Fin 1)) * rowsByCols (M := 10000) (K := 512) (N := 256) x0 x2 (ix2 q c)) := by
  rw [val_main_v26_apply]
  refine Finset.sum_congr rfl fun k _ => ?_
  have el : lidx_main_v26 (ix2 r c) k = ix2 r k :=
    funext fun a => Fin.ext (by match a with | ⟨0, _⟩ => rfl | ⟨1, _⟩ => rfl)
  have er : ridx_main_v26 (ix2 r c) k = ix2 k c :=
    funext fun a => Fin.ext (by match a with | ⟨0, _⟩ => rfl | ⟨1, _⟩ => rfl)
  rw [el, er, v15_at, v25_at]

/-- A bias vector laid out along every row. -/
theorem v30_at (x3 : FVec Ideal S256 .f32) (r : Fin 10000) (c : Fin 256) :
    val_main_v30 (F := Ideal) x3 (ix2 r c) = x3 (ix1 c) := by
  have e : idx_main_v29 (idx_main_v30 (ix2 r c)) = ix1 c := funext fun a => Fin.ext (by match a with | ⟨0, _⟩ => rfl)
  rw [val_main_v30_apply, val_main_v29_apply, e]

/-- The second bias vector laid out along every row. -/
theorem v33_at (x4 : FVec Ideal S256 .f32) (r : Fin 10000) (c : Fin 256) :
    val_main_v33 (F := Ideal) x4 (ix2 r c) = x4 (ix1 c) := by
  have e : idx_main_v32 (idx_main_v33 (ix2 r c)) = ix1 c := funext fun a => Fin.ext (by match a with | ⟨0, _⟩ => rfl)
  rw [val_main_v33_apply, val_main_v32_apply, e]

/-- The reference program's result is the layer in the reference arrangement. -/
theorem reference_eq (x0 : FVec Ideal S10000x512 .f32) (x1 : FVec Ideal S10000x10000 .f32) (x2 : FVec Ideal S512x256 .f32)
    (x3 x4 : FVec Ideal S256 .f32) :
    Cert.ReferenceIdeal.Read.val_main_v35 (F := Ideal) x0 x1 x2 x3 x4
      = Cert.GcnLayer.layerRef (n := 10000) (k := 512) (o := 256) x0 x1 x2 x3 x4 := by
  funext j
  obtain ⟨r, c, rfl⟩ : ∃ (r : Fin 10000) (c : Fin 256), j = ix2 r c := ⟨j 0, j 1, eq_ix2 j⟩
  have e : idx_main_v27 (ix2 r c) = ix2 r (0 : Fin 1) :=
    funext fun a => Fin.ext (by match a with | ⟨0, _⟩ => rfl | ⟨1, _⟩ => rfl)
  rw [val_main_v35_apply, val_main_v34_apply, val_main_v31_apply, val_main_v28_apply, val_main_v27_apply, e, v22_at,
    v26_at, v30_at, v33_at, val_main_call1_v0_apply, val_main_call1_cst_apply,
    Ideal.mulf_def, Ideal.addf_def, Ideal.addf_def, Ideal.maximumf_def]
  rfl

end Cert.ReferenceIdeal.RefLayer

end
-- ==== Proof.LayerAlgebra.lean ====
/-
  The two arrangements of the layer's output are one function.

  At entry `(r, k)`, with `s` the column of normalising scales, `A = selfLoops a` and `h = x · w`:
      `(∑ q, A (r, q) · (h (q, k) · s q)) · s r + (b₁ k + b₂ k)`
  and
      `(s r · ∑ q, A (r, q) · (s q · h (q, k)) + b₁ k) + b₂ k`
  differ by the order of two factors inside the sum, the order of the outer product's two factors, and the grouping of a
  sum of three terms. Products commute and sums associate on the extended reals whatever the entries are, so no entry
  needs to be finite.
-/
import proofs.«141669_j86758339379593_1_alg».proof.Proof.LayerSpec

noncomputable section

open scoped BigOperators

namespace Cert.GcnLayer

open Idealize.ShloMosaic Idealize.ShloMosaic.ValueIdx Idealize.ShloMosaic.PlainProduct Cert.GcnRows

theorem layerRef_eq_layer {n k o : ℕ} (x : FVec Ideal ⟨2, ![n, k]⟩ .f32) (a : FVec Ideal ⟨2, ![n, n]⟩ .f32)
    (w : FVec Ideal ⟨2, ![k, o]⟩ .f32) (b₁ b₂ : FVec Ideal ⟨1, ![o]⟩ .f32) :
    layerRef x a w b₁ b₂ = layer x a w b₁ b₂ := by
  funext j
  show max (((invSqrtDeg a (ix2 (n0 := n) (n1 := 1) (j 0) 0)
        * ∑ q : Fin n, selfLoops a (ix2 (n0 := n) (n1 := n) (j 0) q)
            * (invSqrtDeg a (ix2 (n0 := n) (n1 := 1) q 0) * rowsByCols x w (ix2 (n0 := n) (n1 := o) q (j 1))))
      + b₁ (ix1 (n := o) (j 1))) + b₂ (ix1 (n := o) (j 1))) zero32
    = max ((∑ q : Fin n, selfLoops a (ix2 (n0 := n) (n1 := n) (j 0) q)
            * (rowsByCols x w (ix2 (n0 := n) (n1 := o) q (j 1)) * invSqrtDeg a (ix2 (n0 := n) (n1 := 1) q 0)))
          * invSqrtDeg a (ix2 (n0 := n) (n1 := 1) (j 0) 0)
        + (b₁ (ix1 (n := o) (j 1)) + b₂ (ix1 (n := o) (j 1)))) zero32
  rw [add_assoc, mul_comm (invSqrtDeg a (ix2 (n0 := n) (n1 := 1) (j 0) 0))]
  refine congrArg (fun z => max (z * invSqrtDeg a (ix2 (n0 := n) (n1 := 1) (j 0) 0)
      + (b₁ (ix1 (n := o) (j 1)) + b₂ (ix1 (n := o) (j 1)))) zero32) ?_
  exact Finset.sum_congr rfl fun q _ => congrArg (fun z => selfLoops a (ix2 (n0 := n) (n1 := n) (j 0) q) * z) (mul_comm _ _)

end Cert.GcnLayer

end
-- ==== Proof.lean ====
/-
  A graph-convolution layer computed by four kernels against its array reference, on the extended reals.

  Both programs take features `x` (10000 × 512), a dense adjacency array `a` (10000 × 10000), weights `w` (512 × 256) and two
  bias vectors, and return `max (D^(-1/2) Â D^(-1/2) (x · w) + b₁ + b₂, 0)`, where `Â` is `a` with a unit diagonal and `D` the
  diagonal of `Â`'s row sums (`Cert.GcnLayer.layer`). The kernel program computes `x · w` in row blocks, the normalising
  scales `D^(-1/2)` in row blocks of `Â` built on the fly, the scaled features in one piece, and the aggregation in row blocks;
  the reference builds `Â` by a scatter and multiplies whole arrays. On the extended reals a change of float format is the
  identity and a sum does not depend on its order, so each region's array is one whole-array function of the arrays it reads
  (`Cert.KernelIdeal.LayerValue.result_layer`), the reference's stages compose to the same function in another arrangement
  (`Cert.ReferenceIdeal.RefLayer.reference_eq`), and the two arrangements agree because products commute and sums associate
  (`Cert.GcnLayer.layerRef_eq_layer`) — no entry needs to be finite, so the precondition is not opened.
  The three frame claims are the programs' runs with the results dropped; the idealization rewrote nothing, so it preserves
  the kernel trivially.
-/
import proofs.«141669_j86758339379593_1_alg».proof.Defs
import proofs.«141669_j86758339379593_1_alg».proof.Proof.Gen.Kernel
import proofs.«141669_j86758339379593_1_alg».proof.Proof.Gen.KernelIdeal
import proofs.«141669_j86758339379593_1_alg».proof.Proof.Gen.ReferenceIdeal
import proofs.«141669_j86758339379593_1_alg».proof.Proof.Gen.Pre_finite_inputs
import proofs.«141669_j86758339379593_1_alg».proof.Proof.KernelFrame
import proofs.«141669_j86758339379593_1_alg».proof.Proof.KernelIdealFrame
import proofs.«141669_j86758339379593_1_alg».proof.Proof.Gen.ReferenceIdeal.Run
import proofs.«141669_j86758339379593_1_alg».proof.Proof.Gen.ReferenceIdeal.Read
import proofs.«141669_j86758339379593_1_alg».proof.Proof.KernelValue
import proofs.«141669_j86758339379593_1_alg».proof.Proof.ReferenceLayer
import proofs.«141669_j86758339379593_1_alg».proof.Proof.LayerAlgebra
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.GenP.frame m ρ

theorem frame_kernelIdeal : Cert.frame_KernelIdeal := fun m ρ _ => Cert.KernelIdeal.GenP.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's output of the argument arrays in their result buffers. -/
theorem algebraic : Cert.algebraic_KernelIdeal_ReferenceIdeal := by
  intro m ρ m' ρ' _ hagree
  refine ⟨fun c => Cert.GcnLayer.layer (n := 10000) (k := 512) (o := 256)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.LayerValue.result_layer m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefLayer.reference_eq, Cert.GcnLayer.layerRef_eq_layer,
      (hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
